-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S2x4096x512 : Shape := ⟨3, ![2, 4096, 512]⟩
abbrev S512x512 : Shape := ⟨2, ![512, 512]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2x4096x512 : S_.BroadcastsInDim S2x4096x512 (![] : Fin 0 → Fin S2x4096x512.rank)
  reducesTo_S2x4096x512_S_d0_1_2 : S2x4096x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  main_v28

def fn {F : FTy → Type} [FloatOps F] (main_arg0 : FVec F S2x4096x4096 .f32) (main_arg1 : FVec F S2x4096x512 .f32) (main_arg2 : FVec F S512x512 .f32) (main_arg3 : FVec F S512x512 .f32) (main_arg4 : FVec F S512x512 .f32) (main_arg5 : FVec F S512x512 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x512 .f32 := Host.absf main_arg1
  let main_cst_0 : FVec F S_ .f32 := constant S_ .f32 0x7F800000#32
  let main_v5 : FVec F S2x4096x512 .f32 := broadcastInDim S2x4096x512 ![] bcast_S_S2x4096x512 main_cst_0
  let main_v6 : IVec S2x4096x512 1 := cmpf .olt main_v4 main_v5
  let main_c_1 : IVec S_ 1 := constantI S_ 1 1#1
  let main_v7 : IVec S_ 1 := (fun x v => Host.reduce IntOp.andi x v reducesTo_S2x4096x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S2x4096x4096 : Shape := ⟨3, ![2, 4096, 4096]⟩
abbrev S2x4096x512 : Shape := ⟨3, ![2, 4096, 512]⟩
abbrev S512x512 : Shape := ⟨2, ![512, 512]⟩
abbrev S1x512x512 : Shape := ⟨3, ![1, 512, 512]⟩
abbrev S2x512x512 : Shape := ⟨3, ![2, 512, 512]⟩
abbrev S1x1024x4096 : Shape := ⟨3, ![1, 1024, 4096]⟩
abbrev S1x4096x512 : Shape := ⟨3, ![1, 4096, 512]⟩
abbrev S1x1024x512 : Shape := ⟨3, ![1, 1024, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 14
  | .vmem => 14
  | .smem => 0
  | _ => 0

abbrev bufTy : (tb : Table) → Fin (tcTables nBuf tb) → BufTy
  | .hbm, ⟨0, _⟩ => ⟨S2x4096x4096, .f32⟩
  | .hbm, ⟨1, _⟩ => ⟨S2x4096x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S1x512x512, .f32⟩
  | .hbm, ⟨7, _⟩ => ⟨S1x512x512, .f32⟩
  | .hbm, ⟨8, _⟩ => ⟨S2x512x512, .f32⟩
  | .hbm, ⟨9, _⟩ => ⟨S1x512x512, .f32⟩
  | .hbm, ⟨10, _⟩ => ⟨S1x512x512, .f32⟩
  | .hbm, ⟨11, _⟩ => ⟨S2x512x512, .f32⟩
  | .hbm, ⟨12, _⟩ => ⟨S2x4096x512, .bf16⟩
  | .hbm, ⟨13, _⟩ => ⟨S4096x512, .f32⟩
  | .local _ .vmem, ⟨0, _⟩ => ⟨S1x1024x4096, .f32⟩
  | .local _ .vmem, ⟨1, _⟩ => ⟨S1x1024x4096, .f32⟩
  | .local _ .vmem, ⟨2, _⟩ => ⟨S1x4096x512, .f32⟩
  | .local _ .vmem, ⟨3, _⟩ => ⟨S1x4096x512, .f32⟩
  | .local _ .vmem, ⟨4, _⟩ => ⟨S1x512x512, .f32⟩
  | .local _ .vmem, ⟨5, _⟩ => ⟨S1x512x512, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x4096, .f32⟩
  | .local _ .vmem, ⟨9, _⟩ => ⟨S1x1024x4096, .f32⟩
  | .local _ .vmem, ⟨10, _⟩ => ⟨S2x4096x512, .bf16⟩
  | .local _ .vmem, ⟨11, _⟩ => ⟨S2x512x512, .f32⟩
  | .local _ .vmem, ⟨12, _⟩ => ⟨S1024x512, .f32⟩
  | .local _ .vmem, ⟨13, _⟩ => ⟨S1024x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let c0_5 : Index := 0#32
  let arg1 : BitVec 32 := BitVec.ofNat 32 (i 1).val
  let c1024_i32 : BitVec 32 := 1024#32
  let v7 : BitVec 32 := Scalar.muli arg1 c1024_i32
  let v8 : Index := Scalar.indexCast v7
  let c0_6 : Index := 0#32
  ![0, v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 2], ![false, false]⟩

def k1_off1 (i : grid1.Coords) : Fin 3 → Nat :=
  let arg1 : BitVec 32 := BitVec.ofNat 32 (i 1).val
  let v3 : Index := Scalar.indexCast arg1
  let c0_2 : Index := 0#32
  let c0_3 : Index := 0#32
  ![v3.toNat, 0, 0]
def k1_off2 (i : grid1.Coords) : Fin 3 → Nat :=
  let arg1 : BitVec 32 := BitVec.ofNat 32 (i 1).val
  let v8 : Index := Scalar.indexCast arg1
  let arg0 : BitVec 32 := BitVec.ofNat 32 (i 0).val
  let c1024_i32 : BitVec 32 := 1024#32
  let v7 : BitVec 32 := Scalar.muli arg0 c1024_i32
  let v9 : Index := Scalar.indexCast v7
  let c0_4 : Index := 0#32
  ![v8.toNat, v9.toNat, 0]
def k1_off3 (i : grid1.Coords) : Fin 3 → Nat :=
  let arg1 : BitVec 32 := BitVec.ofNat 32 (i 1).val
  let v19 : Index := Scalar.indexCast arg1
  let c0_7 : Index := 0#32
  let c0_8 : Index := 0#32
  ![v19.toNat, 0, 0]
def k1_cond1 (i : grid1.Coords) : BitVec 1 :=
  let arg1 : BitVec 32 := BitVec.ofNat 32 (i 1).val
  let c0_i32 : BitVec 32 := 0#32
  let v26 : BitVec 1 := Scalar.cmpi .eq arg1 c0_i32
  let v27 : BitVec 32 := Scalar.extui v26
  let c0_i32_11 : BitVec 32 := 0#32
  let v28 : BitVec 1 := Scalar.cmpi .ne v27 c0_i32_11
  v28

def k1_cond2 (i : grid1.Coords) : BitVec 1 :=
  let arg1 : BitVec 32 := BitVec.ofNat 32 (i 1).val
  let c0_i32_12 : BitVec 32 := 0#32
  let v29 : BitVec 1 := Scalar.cmpi .sgt arg1 c0_i32_12
  let v30 : BitVec 32 := Scalar.extui v29
  let c0_i32_13 : BitVec 32 := 0#32
  let v31 : BitVec 1 := Scalar.cmpi .ne v30 c0_i32_13
  v31

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2x4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2x512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S512x512_S1x512x512_1_2 : S512x512.BroadcastsInDim S1x512x512 (![1, 2] : Fin 2 → Fin S1x512x512.rank)
  concatenates_S1x512x512_S1x512x512_S2x512x512_d0 : Shape.Concatenates [S1x512x512, S1x512x512] S2x512x512 0
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  bitsLt_bf16_f32 : FTy.bits .bf16 < FTy.bits .f32
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  h_S1x1024x512 : 0 < S1x1024x512.numel
  shapeCasts_S1x1024x512_S1024x512 : S1x1024x512.ShapeCasts S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1024x512_S1x1024x512_0_0_0 : ∀ a, (![0, 0, 0] : Fin 3 → Nat) a + S1x1024x512.size a ≤ S1x1024x512.size a
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S1024x4096_S4096x512_S1024x512_1_0_0_1_n_n_wf : DotDims.WF S1024x4096 S4096x512 S1024x512 [1] [0] [0] [1] [] []
  dot_S1024x512_S512x512_S1024x512_1_0_0_1_n_n_wf : DotDims.WF S1024x512 S512x512 S1024x512 [1] [0] [0] [1] [] []
  hrank0 : 0 < grid0.rank
  k0_off1_inb : ∀ i : grid0.Coords, ∀ a, (k0_off1 i) a + S1x1024x512.size a ≤ S1x4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4096.size a ≤ S2x4096x4096.size a
  hwx0_0 : ∀ i : grid0.Coords, EltTy.bits .f32 = 32 ∨ (Rect.block (s := S2x4096x4096) S1x1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x512.size a ≤ S2x4096x512.size a
  hwx0_1 : ∀ i : grid0.Coords, EltTy.bits .f32 = 32 ∨ (Rect.block (s := S2x4096x512) S1x4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S2x512x512.size a
  hwx0_2 : ∀ i : grid0.Coords, EltTy.bits .f32 = 32 ∨ (Rect.block (s := S2x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S2x4096x512.size a
  hwx0_3 : ∀ i : grid0.Coords, EltTy.bits .bf16 = 32 ∨ (Rect.block (s := S2x4096x512) S1x1024x512.size (cc0_transform_3 i) (hinb0_3 i)).WholeWords (EltTy.packing .bf16)
  hrank1 : 0 < grid1.rank
  k1_off1_inb : ∀ i : grid1.Coords, ∀ a, (k1_off1 i) a + S1x4096x512.size a ≤ S2x4096x512.size a
  k1_off2_inb : ∀ i : grid1.Coords, ∀ a, (k1_off2 i) a + S1x1024x512.size a ≤ S2x4096x512.size a
  k1_off3_inb : ∀ i : grid1.Coords, ∀ a, (k1_off3 i) a + S1x512x512.size a ≤ S2x512x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x4096.size a ≤ S2x4096x4096.size a
  hwx1_0 : ∀ i : grid1.Coords, EltTy.bits .f32 = 32 ∨ (Rect.block (s := S2x4096x4096) S1x1024x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x4096x512.size a ≤ S2x4096x512.size a
  hwx1_1 : ∀ i : grid1.Coords, EltTy.bits .bf16 = 32 ∨ (Rect.block (s := S2x4096x512) S2x4096x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x512x512.size a ≤ S2x512x512.size a
  hwx1_2 : ∀ i : grid1.Coords, EltTy.bits .f32 = 32 ∨ (Rect.block (s := S2x512x512) S2x512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S4096x512.size a
  hwx1_3 : ∀ i : grid1.Coords, EltTy.bits .f32 = 32 ∨ (Rect.block (s := S4096x512) S1024x512.size (cc1_transform_3 i) (hinb1_3 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1x1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2x4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2x512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S2x4096x512 : Shape := ⟨3, ![2, 4096, 512]⟩
abbrev S512x512 : Shape := ⟨2, ![512, 512]⟩
abbrev S1x4096x512 : Shape := ⟨3, ![1, 4096, 512]⟩
abbrev S4096x512 : Shape := ⟨2, ![4096, 512]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S1x4096x512, .f32⟩
  | .hbm, ⟨7, _⟩ => ⟨S4096x512, .f32⟩
  | .hbm, ⟨8, _⟩ => ⟨S1x4096x512, .f32⟩
  | .hbm, ⟨9, _⟩ => ⟨S4096x512, .f32⟩
  | .hbm, ⟨10, _⟩ => ⟨S1x4096x4096, .f32⟩
  | .hbm, ⟨11, _⟩ => ⟨S4096x4096, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S1x4096x4096, .f32⟩
  | .hbm, ⟨22, _⟩ => ⟨S4096x4096, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S1x4096x4096, .f32⟩
  | .hbm, ⟨39, _⟩ => ⟨S4096x4096, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S1x4096x4096, .f32⟩
  | .hbm, ⟨50, _⟩ => ⟨S4096x4096, .f32⟩
  | .hbm, ⟨51, _⟩ => ⟨S4096x512, .f32⟩
  | .hbm, ⟨52, _⟩ => ⟨S_, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S_, .f32⟩
  | .hbm, ⟨65, _⟩ => ⟨S4096x512, .f32⟩
  | .hbm, ⟨66, _⟩ => ⟨S4096x512, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_call1_cst : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  slices_S2x4096x512_S1x4096x512_0_0_0 : S2x4096x512.Slices ![0, 0, 0] S1x4096x512
  shapeCasts_S1x4096x512_S4096x512 : S1x4096x512.ShapeCasts S4096x512
  slices_S2x4096x512_S1x4096x512_1_0_0 : S2x4096x512.Slices ![1, 0, 0] S1x4096x512
  slices_S2x4096x4096_S1x4096x4096_0_0_0 : S2x4096x4096.Slices ![0, 0, 0] S1x4096x4096
  shapeCasts_S1x4096x4096_S4096x4096 : S1x4096x4096.ShapeCasts S4096x4096
  bcast_S_S4096x512 : S_.BroadcastsInDim S4096x512 (![] : Fin 0 → Fin S4096x512.rank)
  slices_S2x4096x4096_S1x4096x4096_1_0_0 : S2x4096x4096.Slices ![1, 0, 0] S1x4096x4096
  dot_S4096x4096_S4096x512_S4096x512_1_0_0_1_n_n_wf : DotDims.WF S4096x4096 S4096x512 S4096x512 [1] [0] [0] [1] [] []
  dot_S4096x512_S512x512_S4096x512_1_0_0_1_n_n_wf : DotDims.WF S4096x512 S512x512 S4096x512 [1] [0] [0] [1] [] []

variable [Facts₀]

def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.K.Base.lean ====
/-
  What the two kernels' body runs share: the staging memrefs the pipelines call the bodies with, and the second
  kernel's two branch conditions in closed form over its grid (row panel r, graph j; the point number is 2r + j):
  the first branch (overwrite) is taken exactly at j = 0, the second (accumulate) exactly at j = 1, and so the
  output window is never idle.
-/
import proofs.«153490_g76459007803594_cont_9to1_m_617_26_alg».proof.Proof.Gen.Kernel.Launch
import proofs.«153490_g76459007803594_cont_9to1_m_617_26_alg».proof.Proof.Gen.Kernel.Skeleton
import proofs.«153490_g76459007803594_cont_9to1_m_617_26_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The overwrite branch is taken at the even points (graph 0). -/
theorem hcondA : ∀ t : Fin cfg1.N, k1_cond1 (grid1.coords t) = 1#1 ↔ t.val % 2 = 0 :=
  (by decide +kernel : ∀ t : Fin grid1.N, k1_cond1 (grid1.coords t) = 1#1 ↔ t.val % 2 = 0)
/-- The accumulate branch is taken at the odd points (graph 1). -/
theorem hcondB : ∀ t : Fin cfg1.N, k1_cond2 (grid1.coords t) = 1#1 ↔ t.val % 2 = 1 :=
  (by decide +kernel : ∀ t : Fin grid1.N, k1_cond2 (grid1.coords t) = 1#1 ↔ t.val % 2 = 1)

/-- The first kernel's staging memrefs at point `t`, as the pipeline passes them. -/
abbrev ms0_0 (t : Fin cfg0.N) : Memref sig .tc .vmem S1x1024x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .bf16 := win0_3.stage (cfg0.slots t 3)
abbrev hs0_3 (t : Fin cfg0.N) : (ms0_3 t).IsWhole := hstage0_3 ((cfg0.slots t 3).cast nbuf0_3)
/-- The second kernel's. -/
abbrev ms1_0 (t : Fin cfg1.N) : Memref sig .tc .vmem S1x1024x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x4096x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)

/-- One staging buffer of each kernel's output window, through which its contents are stated. -/
abbrev VO0_3 : View sig .tc .vmem S1x1024x512 .bf16 := (Memref.whole cc0_stg3_0 : Memref sig .tc .vmem S1x1024x512 .bf16).view
abbrev VO1_3 : View sig .tc .vmem S1024x512 .f32 := (Memref.whole cc1_stg3_0 : Memref sig .tc .vmem S1024x512 .f32).view

/-- The second kernel's output window is live at every coordinate: one of its two branches is always taken. -/
theorem live1_3 (i : grid1.Coords) : cfg1.idle 3 i = false := by
  have h : (i 1).val < 2 := (i 1).isLt
  show (!(k1_cond1 i == 1#1) && !(k1_cond2 i == 1#1)) = false
  unfold k1_cond1 k1_cond2
  have h' : (i 1).val = 0 ∨ (i 1).val = 1 := by omega
  rcases h' with h' | h' <;> rw [h'] <;> decide

end Cert.Kernel.Fr

end
-- ==== Proof.K.Run0.lean ====
/-
  The first kernel's body, run once on whole staging memrefs: from the three input buffers at their contents and
  the output buffer at anything, the body runs to its return leaving the inputs as they were and the output buffer
  with the body's stores written — the list of stored pieces is the witness the run finds.
-/
import proofs.«153490_g76459007803594_cont_9to1_m_617_26_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0 (c : Dev nD) (i : grid0.Coords)
    (arg2 : Memref sig .tc .vmem S1x1024x4096 .f32) (harg2 : arg2.IsWhole) (arg3 : Memref sig .tc .vmem S1x4096x512 .f32) (harg3 : arg3.IsWhole)
    (arg4 : Memref sig .tc .vmem S1x512x512 .f32) (harg4 : arg4.IsWhole) (arg5 : Memref sig .tc .vmem S1x1024x512 .bf16) (harg5 : arg5.IsWhole)
    (x0 : Vec F S1x1024x4096 .f32) (x1 : Vec F S1x4096x512 .f32) (x2 : Vec F S1x512x512 .f32) :
    { L3 : List (View.Piece (Elt F) S1x1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__layer0_body i arg2 harg2 arg3 harg3 arg4 harg4 arg5 harg5) K } := by
  refine ⟨?_, fun E K => ?run⟩
  case run =>
    simp only [cc0__layer0_body_eq_skeleton]; unfold cc0__layer0_body_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Fr

end
-- ==== Proof.K.Region0.lean ====
/-
  The first pallas_call (grid: graph j, row panel r) at a parameter `V`, the buffer contents when the region is
  entered: each window's block at a point, what the body leaves in the output window's staging buffer as a function
  of the three input blocks, the pipeline's proof data, and the body obligation at every point. The output block of
  point (j, r) depends only on that point's input blocks; every point writes its block back.
-/
import proofs.«153490_g76459007803594_cont_9to1_m_617_26_alg».proof.Proof.K.Run0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-- The body's one store tiles the output block, so its pieces cover it. -/
theorem cover0_3 (c : Dev nD) (i : grid0.Coords)
    (arg2 : Memref sig .tc .vmem S1x1024x4096 .f32) (harg2 : arg2.IsWhole) (arg3 : Memref sig .tc .vmem S1x4096x512 .f32) (harg3 : arg3.IsWhole)
    (arg4 : Memref sig .tc .vmem S1x512x512 .f32) (harg4 : arg4.IsWhole) (arg5 : Memref sig .tc .vmem S1x1024x512 .bf16) (harg5 : arg5.IsWhole)
    (x0 : Vec F S1x1024x4096 .f32) (x1 : Vec F S1x4096x512 .f32) (x2 : Vec F S1x512x512 .f32) (y : S1x1024x512.Idx) :
    ∃ pc ∈ (kernelRun0 c i arg2 harg2 arg3 harg3 arg4 harg4 arg5 harg5 x0 x1 x2).1, y ∈ pc.1.set :=
  View.cover_of_tiledL (kernelRun0 c i arg2 harg2 arg3 harg3 arg4 harg4 arg5 harg5 x0 x1 x2).1 S1x1024x512.size (by sl_kernel_rfl) y

/-- What the body leaves in the output window's staging buffer: its pieces read back over junk. -/
def out0_3 (c : Dev nD) (i : grid0.Coords)
    (arg2 : Memref sig .tc .vmem S1x1024x4096 .f32) (harg2 : arg2.IsWhole) (arg3 : Memref sig .tc .vmem S1x4096x512 .f32) (harg3 : arg3.IsWhole)
    (arg4 : Memref sig .tc .vmem S1x512x512 .f32) (harg4 : arg4.IsWhole) (arg5 : Memref sig .tc .vmem S1x1024x512 .bf16) (harg5 : arg5.IsWhole)
    (x0 : Vec F S1x1024x4096 .f32) (x1 : Vec F S1x4096x512 .f32) (x2 : Vec F S1x512x512 .f32) : Vec F S1x1024x512 .bf16 :=
  VO0_3.read (Elt F) (VO0_3.writes (Elt F) VO0_3.junk (kernelRun0 c i arg2 harg2 arg3 harg3 arg4 harg4 arg5 harg5 x0 x1 x2).1)

section
variable (V : (c : Dev nD) → (b : Ref sig .tc) → Buf (Elt F) ((c : Thread nD τ).loc b))

/-- The output block after the body at point `t`, from the point's input blocks. -/
def outAt0 (c : Dev nD) (t : Fin cfg0.N) : Vec F S1x1024x512 .bf16 :=
  out0_3 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-- The proof data of the first pipeline on core `c`: the arrays as the region finds them; after the body at point
    `t` each input's buffer at its block and the output's at `outAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point: the inputs' memrefs hold their blocks, so the run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Fr

end
-- ==== Proof.K.Run1A.lean ====
/-
  The second kernel's body in the case of graph 0 (the overwrite branch taken, the accumulate branch not), run once on
  whole staging memrefs: the three input buffers at their contents, the output buffer at anything; the
  list of pieces the body's stores leave in the output buffer is the witness the run finds.
-/
import proofs.«153490_g76459007803594_cont_9to1_m_617_26_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords)
    (arg2 : Memref sig .tc .vmem S1x1024x4096 .f32) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (hc1 : k1_cond1 i = 1#1) (hc2 : ¬k1_cond2 i = 1#1)
    (x0 : Vec F S1x1024x4096 .f32) (x1 : Vec F S2x4096x512 .bf16) (x2 : Vec F S2x512x512 .f32) :
    { L3 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__layer1_body i arg2 harg2 arg3 harg3 arg4 harg4 arg5 harg5) K } := by
  refine ⟨?_, fun E K => ?run⟩
  case run =>
    simp only [cc1__layer1_body_eq_skeleton]; unfold cc1__layer1_body_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Fr

end
-- ==== Proof.K.Run1B.lean ====
/-
  The second kernel's body in the case of graph 1 (the accumulate branch taken, the overwrite branch not), run once on
  whole staging memrefs: the three input buffers at their contents, the output buffer at its running contents; the
  list of pieces the body's stores leave in the output buffer is the witness the run finds.
-/
import proofs.«153490_g76459007803594_cont_9to1_m_617_26_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords)
    (arg2 : Memref sig .tc .vmem S1x1024x4096 .f32) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (hc1 : ¬k1_cond1 i = 1#1) (hc2 : k1_cond2 i = 1#1)
    (x0 : Vec F S1x1024x4096 .f32) (x1 : Vec F S2x4096x512 .bf16) (x2 : Vec F S2x512x512 .f32) (xo : Vec F S1024x512 .f32) :
    { L3 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__layer1_body i arg2 harg2 arg3 harg3 arg4 harg4 arg5 harg5) K } := by
  refine ⟨?_, fun E K => ?run⟩
  case run =>
    simp only [cc1__layer1_body_eq_skeleton]; unfold cc1__layer1_body_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Fr

end
-- ==== Proof.K.Region1.lean ====
/-
  The second pallas_call (grid: row panel r, graph j; the point number is 2r + j) at a parameter `V`, the buffer
  contents when the region is entered. The output block of row panel r is assembled over the panel's two points:
  at j = 0 the body overwrites it with graph 0's contribution, at j = 1 it reads the block back and adds graph 1's;
  the block is written back after the second point only. So what the output window's staging buffer holds after
  point n is defined by recursion on n, the odd points over what the point before left.
-/
import proofs.«153490_g76459007803594_cont_9to1_m_617_26_alg».proof.Proof.K.Run1A
import proofs.«153490_g76459007803594_cont_9to1_m_617_26_alg».proof.Proof.K.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-- In either case the body's one store tiles the output block, so its pieces cover it. -/
theorem cover1_A (c : Dev nD) (i : grid1.Coords) (arg2 : Memref sig .tc .vmem S1x1024x4096 .f32) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (hc1 : k1_cond1 i = 1#1) (hc2 : ¬k1_cond2 i = 1#1) (x0 : Vec F S1x1024x4096 .f32) (x1 : Vec F S2x4096x512 .bf16) (x2 : Vec F S2x512x512 .f32) (y : S1024x512.Idx) :
    ∃ pc ∈ (kernelRun1_A c i arg2 harg2 arg3 harg3 arg4 harg4 arg5 harg5 hc1 hc2 x0 x1 x2).1, y ∈ pc.1.set :=
  View.cover_of_tiledL (kernelRun1_A c i arg2 harg2 arg3 harg3 arg4 harg4 arg5 harg5 hc1 hc2 x0 x1 x2).1 S1024x512.size (by sl_kernel_rfl) y
theorem cover1_B (c : Dev nD) (i : grid1.Coords) (arg2 : Memref sig .tc .vmem S1x1024x4096 .f32) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (hc1 : ¬k1_cond1 i = 1#1) (hc2 : k1_cond2 i = 1#1) (x0 : Vec F S1x1024x4096 .f32) (x1 : Vec F S2x4096x512 .bf16) (x2 : Vec F S2x512x512 .f32) (xo : Vec F S1024x512 .f32) (y : S1024x512.Idx) :
    ∃ pc ∈ (kernelRun1_B c i arg2 harg2 arg3 harg3 arg4 harg4 arg5 harg5 hc1 hc2 x0 x1 x2 xo).1, y ∈ pc.1.set :=
  View.cover_of_tiledL (kernelRun1_B c i arg2 harg2 arg3 harg3 arg4 harg4 arg5 harg5 hc1 hc2 x0 x1 x2 xo).1 S1024x512.size (by sl_kernel_rfl) y

/-- What each case leaves in the output window's staging buffer: its pieces read back over junk. -/
def out1_A (c : Dev nD) (i : grid1.Coords) (arg2 : Memref sig .tc .vmem S1x1024x4096 .f32) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (hc1 : k1_cond1 i = 1#1) (hc2 : ¬k1_cond2 i = 1#1) (x0 : Vec F S1x1024x4096 .f32) (x1 : Vec F S2x4096x512 .bf16) (x2 : Vec F S2x512x512 .f32) : Vec F S1024x512 .f32 :=
  VO1_3.read (Elt F) (VO1_3.writes (Elt F) VO1_3.junk (kernelRun1_A c i arg2 harg2 arg3 harg3 arg4 harg4 arg5 harg5 hc1 hc2 x0 x1 x2).1)
def out1_B (c : Dev nD) (i : grid1.Coords) (arg2 : Memref sig .tc .vmem S1x1024x4096 .f32) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (hc1 : ¬k1_cond1 i = 1#1) (hc2 : k1_cond2 i = 1#1) (x0 : Vec F S1x1024x4096 .f32) (x1 : Vec F S2x4096x512 .bf16) (x2 : Vec F S2x512x512 .f32) (xo : Vec F S1024x512 .f32) : Vec F S1024x512 .f32 :=
  VO1_3.read (Elt F) (VO1_3.writes (Elt F) VO1_3.junk (kernelRun1_B c i arg2 harg2 arg3 harg3 arg4 harg4 arg5 harg5 hc1 hc2 x0 x1 x2 xo).1)

/-- At an even point the overwrite branch is taken and the accumulate branch is not; at an odd point the reverse. -/
theorem hA1 (t : Fin cfg1.N) (h : t.val % 2 = 0) : k1_cond1 (grid1.coords t) = 1#1 := (hcondA t).mpr h
theorem hA2 (t : Fin cfg1.N) (h : t.val % 2 = 0) : ¬k1_cond2 (grid1.coords t) = 1#1 := fun h' => by have := (hcondB t).mp h'; omega
theorem hB1 (t : Fin cfg1.N) (h : ¬t.val % 2 = 0) : ¬k1_cond1 (grid1.coords t) = 1#1 := fun h' => h ((hcondA t).mp h')
theorem hB2 (t : Fin cfg1.N) (h : ¬t.val % 2 = 0) : k1_cond2 (grid1.coords t) = 1#1 := (hcondB t).mpr (by omega)

section
variable (V : (c : Dev nD) → (b : Ref sig .tc) → Buf (Elt F) ((c : Thread nD τ).loc b))

/-- THE ACCUMULATION. What the output window's staging buffer holds after the body at position `n`: at an even
    position graph 0's contribution, at an odd one graph 1's added to what position `n - 1` left. -/
def outsAt1 (c : Dev nD) : (n : ℕ) → n < cfg1.N → Vec F S1024x512 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (hA1 ⟨0, hn⟩ (Nat.zero_mod _)) (hA2 ⟨0, hn⟩ (Nat.zero_mod _)) (iblk1 V c 0 ⟨0, hn⟩) (iblk1 V c 1 ⟨0, hn⟩) (iblk1 V c 2 ⟨0, hn⟩)
  | n + 1, hn =>
    if h0 : (n + 1) % 2 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (hA1 ⟨n + 1, hn⟩ h0) (hA2 ⟨n + 1, hn⟩ h0) (iblk1 V c 0 ⟨n + 1, hn⟩) (iblk1 V c 1 ⟨n + 1, hn⟩) (iblk1 V c 2 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (hB1 ⟨n + 1, hn⟩ h0) (hB2 ⟨n + 1, hn⟩ h0) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 2 = 0) :
    outsAt1 V c t.val t.isLt = out1_A c (grid1.coords t) (ms1_0 t) (hs1_0 t) (ms1_1 t) (hs1_1 t) (ms1_2 t) (hs1_2 t) (ms1_3 t) (hs1_3 t) (hA1 t h0) (hA2 t h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 2 = 0) :
    outsAt1 V c t.val t.isLt = out1_B c (grid1.coords t) (ms1_0 t) (hs1_0 t) (ms1_1 t) (hs1_1 t) (ms1_2 t) (hs1_2 t) (ms1_3 t) (hs1_3 t) (hB1 t h0) (hB2 t h0) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the second pipeline on core `c`: the arrays as the region finds them; after the body at point
    `t` each input's buffer at its block and the output's at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At an odd point the output window's staging buffer holds what the body left at the point before: the point is
    not the first, the buffer was not written back between, the window is live and uncut. -/
theorem before1_3_B (c : Dev nD) (t : Fin cfg1.N) (h0 : ¬t.val % 2 = 0) (d) :
    (dat1 V c).before 3 t d = outsAt1 V c (t.val - 1) (Nat.lt_of_le_of_lt (Nat.sub_le _ _) t.isLt) := by
  have hN : t.val < 8 := lt_of_lt_of_eq t.isLt (show cfg1.N = 8 from N_1)
  rw [Dat.before_out_kept _ 3 rfl t (by omega) (Bool.eq_false_iff.mpr fun h => by have := (flush1_3 _).mp h; dsimp only at this; omega)
    live1_3 (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks; the parity of the point says which case it is in;
    at an odd point the output's buffer holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 2 = 0
  · rw [outsAt1_A V c t h0]
    unfold out1_A
    iintro ⟨HΦ, Ho, ⟨%d0, H0⟩, ⟨%d1, H1⟩, ⟨%d2, H2⟩, ⟨%d3, H3⟩⟩
    iapply ((kernelRun1_A c (grid1.coords t) _ _ _ _ _ _ _ _ (hA1 t h0) (hA2 t h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A c _ _ _ _ _ _ _ _ _ _ _ _ _ _)
  · rw [outsAt1_B V c t h0]
    simp only [before1_3_B V c t h0]
    unfold out1_B
    iintro ⟨HΦ, Ho, ⟨%d0, H0⟩, ⟨%d1, H1⟩, ⟨%d2, H2⟩, ⟨%d3, H3⟩⟩
    iapply ((kernelRun1_B c (grid1.coords t) _ _ _ _ _ _ _ _ (hB1 t h0) (hB2 t h0) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B c _ _ _ _ _ _ _ _ _ _ _ _ _ _ _)

theorem body_obligation1 (c : Dev nD) : BodyObligation (dat1 (F := F) V c) (defs₀ (F := F)) Variants.none () Set.univ := fun t => by
  rw [bigSep_W1, bigSep_W1]
  have hl : idle1 3 (grid1.coords t) = false := live1_3 _
  have hl' : cfg1.idle 3 (cfg1.grid.coords t) = false := live1_3 _
  first | rw [hl] | rw [hl'] | (dsimp only []; rw [hl])
  exact sound_body1 V c t

end

end Cert.Kernel.Fr

end
-- ==== Proof.K.Frame.lean ====
/-
  The whole run of @main: the host stretch (the two weight stacks), then the two pallas_calls, as a sequence of
  segments. The buffer contents at each boundary are a fold from the launch memory: after the host stretch, after
  the first call (its output array at what the pipeline's write-backs leave), after the second. Every weakly fair
  execution terminates with the result array at the second pipeline's folded write-backs and every argument array
  as launched.
-/
import proofs.«153490_g76459007803594_cont_9to1_m_617_26_alg».proof.Proof.K.Region0
import proofs.«153490_g76459007803594_cont_9to1_m_617_26_alg».proof.Proof.K.Region1
import proofs.«153490_g76459007803594_cont_9to1_m_617_26_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch, and after the host stretch (the first call's entry). -/
abbrev B0 : Dev nD → Valuation τ sig (Elt F) := fun c => Gen.V0 m c
abbrev B1 : Dev nD → Valuation τ sig (Elt F) := fun c => Gen.V1 m c
abbrev E1 : (c : Dev nD) → (b : Ref sig .tc) → Buf (Elt F) ((c : Thread nD τ).loc b) := fun c b => B1 m c b
/-- At the first call's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- At the second call's exit. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### The arguments end as launched -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := (B3_arr m c 0).trans (((dat1 (E2 m) c).arrAt_in 0 rfl _).trans (A_eq1 (E2 m) c 0))
    _ = B1 m c (Proc.devRef .tc main_arg0) := (B2_arr m c 0).trans (((dat0 (E1 m) c).arrAt_in 0 rfl _).trans (A_eq0 (E1 m) c 0))
    _ = B0 m c (Proc.devRef .tc main_arg0) := Gen.V1_of m c main_arg0 (by decide)
    _ = m ((c : Thread nD τ).loc main_arg0) := rfl
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := (B2_arr m c 1).trans (((dat0 (E1 m) c).arrAt_in 1 rfl _).trans (A_eq0 (E1 m) c 1))
    _ = B0 m c (Proc.devRef .tc main_arg1) := Gen.V1_of m c main_arg1 (by decide)
    _ = m ((c : Thread nD τ).loc main_arg1) := rfl
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := Gen.V1_of m c main_arg2 (by decide)
    _ = m ((c : Thread nD τ).loc main_arg2) := rfl
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := Gen.V1_of m c main_arg3 (by decide)
    _ = m ((c : Thread nD τ).loc main_arg3) := rfl
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := Gen.V1_of m c main_arg4 (by decide)
    _ = m ((c : Thread nD τ).loc main_arg4) := rfl
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = B0 m c (Proc.devRef .tc main_arg5) := Gen.V1_of m c main_arg5 (by decide)
    _ = m ((c : Thread nD τ).loc main_arg5) := rfl

/-- The result array at the end: the second pipeline's write-backs folded over its entry contents. -/
def result (c : Dev nD) : Buf (Elt F) ((c.tc : Thread nD τ).loc main_v7) := (dat1 (E2 m) c).arrAt 3 cfg1.N
theorem B3_main_v7 (c : Dev nD) : B3 m c (Proc.devRef .tc main_v7) = result m c := B3_arr m c 3

/-! ## The proof data family and the thread state -/

/-- Every pipeline's proof data, each at its region's entry contents. -/
def pdatsF : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱F : Variants := Variants.none
abbrev LF : GSem nD τ sig → Finset Unit := fun _ => ∅
abbrev lvF : GSem nD τ sig → Unit → ℕ := fun _ _ => 0
/-- What rides beside the buffers through every segment: the core's generator register at some state and its dues, at nothing. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnF (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The first call over the thread state: entered from every unscoped buffer at `B1`, left at `B2`. -/
def regA : Pipeline.RegionSeg (pcfgs (F := F)) Gen.adm (pdatsF m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LF lvF 0 fun _ _ => rfl
  pre c := iprop(StableHlo.held (c : Thread nD τ) (Pipeline.ucRefs τ sig) (B1 m c) ∗ RF c)
  post c := iprop(StableHlo.held (c : Thread nD τ) (Pipeline.ucRefs τ sig) (B2 m c) ∗ RF c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdatsF m) launch0.win launch0.arr_whole c
      ((pdatsF m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdatsF m) ((pdatsF m 0 c).share_full fun _ => rfl)
      (E1 m c) (E2 m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `B2`, left at `B3`. -/
def regB : Pipeline.RegionSeg (pcfgs (F := F)) Gen.adm (pdatsF m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ LF lvF 1 fun _ _ => rfl
  pre c := iprop(StableHlo.held (c : Thread nD τ) (Pipeline.ucRefs τ sig) (B2 m c) ∗ RF c)
  post c := iprop(TnF m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdatsF m) launch1.win launch1.arr_whole c
      ((pdatsF m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdatsF m) ((pdatsF m 1 c).share_full fun _ => rfl)
      (E2 m c) (E3 m c) ((pdatsF m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsF : List (Pipeline.Seg (pcfgs (F := F)) Gen.adm (pdatsF m) () defs₀ 𝒱F LF lvF) :=
  [ .host (hsegF hostOps0 hostOps0_sub Gen.hostOps0_fresh (B0 m)),
    .region (regA m),
    .region (regB m) ]
theorem main_run (c : Dev nD) : main (F := F) c = Pipeline.Seg.run (segsF m) := (main_chain c).trans (by chain_rfl)

set_option backward.isDefEq.respectTransparency.types false in
/-- THE RUN: from any memory with zero counters, every weakly fair execution of @main terminates, nothing faulting,
    with the result array at `result` and every argument array as launched. -/
theorem run (ρ : Dev nD → PrngReg) : θ_run defs (onTc (τ := τ) (main (F := F))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) Gen.adm (pdatsF m) () cellOf_inj emb₁ defs₀ 𝒱F LF lvF m ρ main (segsF m)
    (fun c Q => by rw [main_run m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RF c)) (Tₙ := TnF m)
    (hch := ⟨fun _ => .rfl, fun _ => .rfl, fun _ => .rfl, fun _ => .rfl⟩)
    (hinit := by
      refine Pipeline.initEach LF lvF fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c =>
      ⟨(h c _ (mem_uc main_v7 (by decide))).trans (B3_main_v7 m c),
       (h c _ (mem_uc main_arg0 (by decide))).trans (B3_main_arg0 m c),
       (h c _ (mem_uc main_arg1 (by decide))).trans (B3_main_arg1 m c),
       (h c _ (mem_uc main_arg2 (by decide))).trans (B3_main_arg2 m c),
       (h c _ (mem_uc main_arg3 (by decide))).trans (B3_main_arg3 m c),
       (h c _ (mem_uc main_arg4 (by decide))).trans (B3_main_arg4 m c),
       (h c _ (mem_uc main_arg5 (by decide))).trans (B3_main_arg5 m c)⟩)

/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.Kernel.Fr

end
-- ==== Proof.KI.Base.lean ====
/-
  What the two kernels' body runs share: the staging memrefs the pipelines call the bodies with, and the second
  kernel's two branch conditions in closed form over its grid (row panel r, graph j; the point number is 2r + j):
  the first branch (overwrite) is taken exactly at j = 0, the second (accumulate) exactly at j = 1, and so the
  output window is never idle.
-/
import proofs.«153490_g76459007803594_cont_9to1_m_617_26_alg».proof.Proof.Gen.KernelIdeal.Launch
import proofs.«153490_g76459007803594_cont_9to1_m_617_26_alg».proof.Proof.Gen.KernelIdeal.Skeleton
import proofs.«153490_g76459007803594_cont_9to1_m_617_26_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The overwrite branch is taken at the even points (graph 0). -/
theorem hcondA : ∀ t : Fin cfg1.N, k1_cond1 (grid1.coords t) = 1#1 ↔ t.val % 2 = 0 :=
  (by decide +kernel : ∀ t : Fin grid1.N, k1_cond1 (grid1.coords t) = 1#1 ↔ t.val % 2 = 0)
/-- The accumulate branch is taken at the odd points (graph 1). -/
theorem hcondB : ∀ t : Fin cfg1.N, k1_cond2 (grid1.coords t) = 1#1 ↔ t.val % 2 = 1 :=
  (by decide +kernel : ∀ t : Fin grid1.N, k1_cond2 (grid1.coords t) = 1#1 ↔ t.val % 2 = 1)

/-- The first kernel's staging memrefs at point `t`, as the pipeline passes them. -/
abbrev ms0_0 (t : Fin cfg0.N) : Memref sig .tc .vmem S1x1024x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .bf16 := win0_3.stage (cfg0.slots t 3)
abbrev hs0_3 (t : Fin cfg0.N) : (ms0_3 t).IsWhole := hstage0_3 ((cfg0.slots t 3).cast nbuf0_3)
/-- The second kernel's. -/
abbrev ms1_0 (t : Fin cfg1.N) : Memref sig .tc .vmem S1x1024x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x4096x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)

/-- One staging buffer of each kernel's output window, through which its contents are stated. -/
abbrev VO0_3 : View sig .tc .vmem S1x1024x512 .bf16 := (Memref.whole cc0_stg3_0 : Memref sig .tc .vmem S1x1024x512 .bf16).view
abbrev VO1_3 : View sig .tc .vmem S1024x512 .f32 := (Memref.whole cc1_stg3_0 : Memref sig .tc .vmem S1024x512 .f32).view

/-- The second kernel's output window is live at every coordinate: one of its two branches is always taken. -/
theorem live1_3 (i : grid1.Coords) : cfg1.idle 3 i = false := by
  have h : (i 1).val < 2 := (i 1).isLt
  show (!(k1_cond1 i == 1#1) && !(k1_cond2 i == 1#1)) = false
  unfold k1_cond1 k1_cond2
  have h' : (i 1).val = 0 ∨ (i 1).val = 1 := by omega
  rcases h' with h' | h' <;> rw [h'] <;> decide

end Cert.KernelIdeal.Fr

end
-- ==== Proof.KI.Run0.lean ====
/-
  The first kernel's body, run once on whole staging memrefs: from the three input buffers at their contents and
  the output buffer at anything, the body runs to its return leaving the inputs as they were and the output buffer
  with the body's stores written — the list of stored pieces is the witness the run finds.
-/
import proofs.«153490_g76459007803594_cont_9to1_m_617_26_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0 (c : Dev nD) (i : grid0.Coords)
    (arg2 : Memref sig .tc .vmem S1x1024x4096 .f32) (harg2 : arg2.IsWhole) (arg3 : Memref sig .tc .vmem S1x4096x512 .f32) (harg3 : arg3.IsWhole)
    (arg4 : Memref sig .tc .vmem S1x512x512 .f32) (harg4 : arg4.IsWhole) (arg5 : Memref sig .tc .vmem S1x1024x512 .bf16) (harg5 : arg5.IsWhole)
    (x0 : Vec F S1x1024x4096 .f32) (x1 : Vec F S1x4096x512 .f32) (x2 : Vec F S1x512x512 .f32) :
    { L3 : List (View.Piece (Elt F) S1x1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__layer0_body i arg2 harg2 arg3 harg3 arg4 harg4 arg5 harg5) K } := by
  refine ⟨?_, fun E K => ?run⟩
  case run =>
    simp only [cc0__layer0_body_eq_skeleton]; unfold cc0__layer0_body_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Fr

end
-- ==== Proof.KI.Region0.lean ====
/-
  The first pallas_call (grid: graph j, row panel r) at a parameter `V`, the buffer contents when the region is
  entered: each window's block at a point, what the body leaves in the output window's staging buffer as a function
  of the three input blocks, the pipeline's proof data, and the body obligation at every point. The output block of
  point (j, r) depends only on that point's input blocks; every point writes its block back.
-/
import proofs.«153490_g76459007803594_cont_9to1_m_617_26_alg».proof.Proof.KI.Run0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-- The body's one store tiles the output block, so its pieces cover it. -/
theorem cover0_3 (c : Dev nD) (i : grid0.Coords)
    (arg2 : Memref sig .tc .vmem S1x1024x4096 .f32) (harg2 : arg2.IsWhole) (arg3 : Memref sig .tc .vmem S1x4096x512 .f32) (harg3 : arg3.IsWhole)
    (arg4 : Memref sig .tc .vmem S1x512x512 .f32) (harg4 : arg4.IsWhole) (arg5 : Memref sig .tc .vmem S1x1024x512 .bf16) (harg5 : arg5.IsWhole)
    (x0 : Vec F S1x1024x4096 .f32) (x1 : Vec F S1x4096x512 .f32) (x2 : Vec F S1x512x512 .f32) (y : S1x1024x512.Idx) :
    ∃ pc ∈ (kernelRun0 c i arg2 harg2 arg3 harg3 arg4 harg4 arg5 harg5 x0 x1 x2).1, y ∈ pc.1.set :=
  View.cover_of_tiledL (kernelRun0 c i arg2 harg2 arg3 harg3 arg4 harg4 arg5 harg5 x0 x1 x2).1 S1x1024x512.size (by sl_kernel_rfl) y

/-- What the body leaves in the output window's staging buffer: its pieces read back over junk. -/
def out0_3 (c : Dev nD) (i : grid0.Coords)
    (arg2 : Memref sig .tc .vmem S1x1024x4096 .f32) (harg2 : arg2.IsWhole) (arg3 : Memref sig .tc .vmem S1x4096x512 .f32) (harg3 : arg3.IsWhole)
    (arg4 : Memref sig .tc .vmem S1x512x512 .f32) (harg4 : arg4.IsWhole) (arg5 : Memref sig .tc .vmem S1x1024x512 .bf16) (harg5 : arg5.IsWhole)
    (x0 : Vec F S1x1024x4096 .f32) (x1 : Vec F S1x4096x512 .f32) (x2 : Vec F S1x512x512 .f32) : Vec F S1x1024x512 .bf16 :=
  VO0_3.read (Elt F) (VO0_3.writes (Elt F) VO0_3.junk (kernelRun0 c i arg2 harg2 arg3 harg3 arg4 harg4 arg5 harg5 x0 x1 x2).1)

section
variable (V : (c : Dev nD) → (b : Ref sig .tc) → Buf (Elt F) ((c : Thread nD τ).loc b))

/-- The output block after the body at point `t`, from the point's input blocks. -/
def outAt0 (c : Dev nD) (t : Fin cfg0.N) : Vec F S1x1024x512 .bf16 :=
  out0_3 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-- The proof data of the first pipeline on core `c`: the arrays as the region finds them; after the body at point
    `t` each input's buffer at its block and the output's at `outAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point: the inputs' memrefs hold their blocks, so the run applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.KI.Run1A.lean ====
/-
  The second kernel's body in the case of graph 0 (the overwrite branch taken, the accumulate branch not), run once on
  whole staging memrefs: the three input buffers at their contents, the output buffer at anything; the
  list of pieces the body's stores leave in the output buffer is the witness the run finds.
-/
import proofs.«153490_g76459007803594_cont_9to1_m_617_26_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords)
    (arg2 : Memref sig .tc .vmem S1x1024x4096 .f32) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (hc1 : k1_cond1 i = 1#1) (hc2 : ¬k1_cond2 i = 1#1)
    (x0 : Vec F S1x1024x4096 .f32) (x1 : Vec F S2x4096x512 .bf16) (x2 : Vec F S2x512x512 .f32) :
    { L3 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__layer1_body i arg2 harg2 arg3 harg3 arg4 harg4 arg5 harg5) K } := by
  refine ⟨?_, fun E K => ?run⟩
  case run =>
    simp only [cc1__layer1_body_eq_skeleton]; unfold cc1__layer1_body_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Fr

end
-- ==== Proof.KI.Run1B.lean ====
/-
  The second kernel's body in the case of graph 1 (the accumulate branch taken, the overwrite branch not), run once on
  whole staging memrefs: the three input buffers at their contents, the output buffer at its running contents; the
  list of pieces the body's stores leave in the output buffer is the witness the run finds.
-/
import proofs.«153490_g76459007803594_cont_9to1_m_617_26_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords)
    (arg2 : Memref sig .tc .vmem S1x1024x4096 .f32) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (hc1 : ¬k1_cond1 i = 1#1) (hc2 : k1_cond2 i = 1#1)
    (x0 : Vec F S1x1024x4096 .f32) (x1 : Vec F S2x4096x512 .bf16) (x2 : Vec F S2x512x512 .f32) (xo : Vec F S1024x512 .f32) :
    { L3 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__layer1_body i arg2 harg2 arg3 harg3 arg4 harg4 arg5 harg5) K } := by
  refine ⟨?_, fun E K => ?run⟩
  case run =>
    simp only [cc1__layer1_body_eq_skeleton]; unfold cc1__layer1_body_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Fr

end
-- ==== Proof.KI.Region1.lean ====
/-
  The second pallas_call (grid: row panel r, graph j; the point number is 2r + j) at a parameter `V`, the buffer
  contents when the region is entered. The output block of row panel r is assembled over the panel's two points:
  at j = 0 the body overwrites it with graph 0's contribution, at j = 1 it reads the block back and adds graph 1's;
  the block is written back after the second point only. So what the output window's staging buffer holds after
  point n is defined by recursion on n, the odd points over what the point before left.
-/
import proofs.«153490_g76459007803594_cont_9to1_m_617_26_alg».proof.Proof.KI.Run1A
import proofs.«153490_g76459007803594_cont_9to1_m_617_26_alg».proof.Proof.KI.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-- In either case the body's one store tiles the output block, so its pieces cover it. -/
theorem cover1_A (c : Dev nD) (i : grid1.Coords) (arg2 : Memref sig .tc .vmem S1x1024x4096 .f32) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (hc1 : k1_cond1 i = 1#1) (hc2 : ¬k1_cond2 i = 1#1) (x0 : Vec F S1x1024x4096 .f32) (x1 : Vec F S2x4096x512 .bf16) (x2 : Vec F S2x512x512 .f32) (y : S1024x512.Idx) :
    ∃ pc ∈ (kernelRun1_A c i arg2 harg2 arg3 harg3 arg4 harg4 arg5 harg5 hc1 hc2 x0 x1 x2).1, y ∈ pc.1.set :=
  View.cover_of_tiledL (kernelRun1_A c i arg2 harg2 arg3 harg3 arg4 harg4 arg5 harg5 hc1 hc2 x0 x1 x2).1 S1024x512.size (by sl_kernel_rfl) y
theorem cover1_B (c : Dev nD) (i : grid1.Coords) (arg2 : Memref sig .tc .vmem S1x1024x4096 .f32) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (hc1 : ¬k1_cond1 i = 1#1) (hc2 : k1_cond2 i = 1#1) (x0 : Vec F S1x1024x4096 .f32) (x1 : Vec F S2x4096x512 .bf16) (x2 : Vec F S2x512x512 .f32) (xo : Vec F S1024x512 .f32) (y : S1024x512.Idx) :
    ∃ pc ∈ (kernelRun1_B c i arg2 harg2 arg3 harg3 arg4 harg4 arg5 harg5 hc1 hc2 x0 x1 x2 xo).1, y ∈ pc.1.set :=
  View.cover_of_tiledL (kernelRun1_B c i arg2 harg2 arg3 harg3 arg4 harg4 arg5 harg5 hc1 hc2 x0 x1 x2 xo).1 S1024x512.size (by sl_kernel_rfl) y

/-- What each case leaves in the output window's staging buffer: its pieces read back over junk. -/
def out1_A (c : Dev nD) (i : grid1.Coords) (arg2 : Memref sig .tc .vmem S1x1024x4096 .f32) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (hc1 : k1_cond1 i = 1#1) (hc2 : ¬k1_cond2 i = 1#1) (x0 : Vec F S1x1024x4096 .f32) (x1 : Vec F S2x4096x512 .bf16) (x2 : Vec F S2x512x512 .f32) : Vec F S1024x512 .f32 :=
  VO1_3.read (Elt F) (VO1_3.writes (Elt F) VO1_3.junk (kernelRun1_A c i arg2 harg2 arg3 harg3 arg4 harg4 arg5 harg5 hc1 hc2 x0 x1 x2).1)
def out1_B (c : Dev nD) (i : grid1.Coords) (arg2 : Memref sig .tc .vmem S1x1024x4096 .f32) (harg2 : arg2.IsWhole) (arg3 : Memref sig .tc .vmem S2x4096x512 .bf16) (harg3 : arg3.IsWhole)
    (arg4 : Memref sig .tc .vmem S2x512x512 .f32) (harg4 : arg4.IsWhole) (arg5 : Memref sig .tc .vmem S1024x512 .f32) (harg5 : arg5.IsWhole)
    (hc1 : ¬k1_cond1 i = 1#1) (hc2 : k1_cond2 i = 1#1) (x0 : Vec F S1x1024x4096 .f32) (x1 : Vec F S2x4096x512 .bf16) (x2 : Vec F S2x512x512 .f32) (xo : Vec F S1024x512 .f32) : Vec F S1024x512 .f32 :=
  VO1_3.read (Elt F) (VO1_3.writes (Elt F) VO1_3.junk (kernelRun1_B c i arg2 harg2 arg3 harg3 arg4 harg4 arg5 harg5 hc1 hc2 x0 x1 x2 xo).1)

/-- At an even point the overwrite branch is taken and the accumulate branch is not; at an odd point the reverse. -/
theorem hA1 (t : Fin cfg1.N) (h : t.val % 2 = 0) : k1_cond1 (grid1.coords t) = 1#1 := (hcondA t).mpr h
theorem hA2 (t : Fin cfg1.N) (h : t.val % 2 = 0) : ¬k1_cond2 (grid1.coords t) = 1#1 := fun h' => by have := (hcondB t).mp h'; omega
theorem hB1 (t : Fin cfg1.N) (h : ¬t.val % 2 = 0) : ¬k1_cond1 (grid1.coords t) = 1#1 := fun h' => h ((hcondA t).mp h')
theorem hB2 (t : Fin cfg1.N) (h : ¬t.val % 2 = 0) : k1_cond2 (grid1.coords t) = 1#1 := (hcondB t).mpr (by omega)

section
variable (V : (c : Dev nD) → (b : Ref sig .tc) → Buf (Elt F) ((c : Thread nD τ).loc b))

/-- THE ACCUMULATION. What the output window's staging buffer holds after the body at position `n`: at an even
    position graph 0's contribution, at an odd one graph 1's added to what position `n - 1` left. -/
def outsAt1 (c : Dev nD) : (n : ℕ) → n < cfg1.N → Vec F S1024x512 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (hA1 ⟨0, hn⟩ (Nat.zero_mod _)) (hA2 ⟨0, hn⟩ (Nat.zero_mod _)) (iblk1 V c 0 ⟨0, hn⟩) (iblk1 V c 1 ⟨0, hn⟩) (iblk1 V c 2 ⟨0, hn⟩)
  | n + 1, hn =>
    if h0 : (n + 1) % 2 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (hA1 ⟨n + 1, hn⟩ h0) (hA2 ⟨n + 1, hn⟩ h0) (iblk1 V c 0 ⟨n + 1, hn⟩) (iblk1 V c 1 ⟨n + 1, hn⟩) (iblk1 V c 2 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (hB1 ⟨n + 1, hn⟩ h0) (hB2 ⟨n + 1, hn⟩ h0) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 2 = 0) :
    outsAt1 V c t.val t.isLt = out1_A c (grid1.coords t) (ms1_0 t) (hs1_0 t) (ms1_1 t) (hs1_1 t) (ms1_2 t) (hs1_2 t) (ms1_3 t) (hs1_3 t) (hA1 t h0) (hA2 t h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 2 = 0) :
    outsAt1 V c t.val t.isLt = out1_B c (grid1.coords t) (ms1_0 t) (hs1_0 t) (ms1_1 t) (hs1_1 t) (ms1_2 t) (hs1_2 t) (ms1_3 t) (hs1_3 t) (hB1 t h0) (hB2 t h0) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the second pipeline on core `c`: the arrays as the region finds them; after the body at point
    `t` each input's buffer at its block and the output's at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At an odd point the output window's staging buffer holds what the body left at the point before: the point is
    not the first, the buffer was not written back between, the window is live and uncut. -/
theorem before1_3_B (c : Dev nD) (t : Fin cfg1.N) (h0 : ¬t.val % 2 = 0) (d) :
    (dat1 V c).before 3 t d = outsAt1 V c (t.val - 1) (Nat.lt_of_le_of_lt (Nat.sub_le _ _) t.isLt) := by
  have hN : t.val < 8 := lt_of_lt_of_eq t.isLt (show cfg1.N = 8 from N_1)
  rw [Dat.before_out_kept _ 3 rfl t (by omega) (Bool.eq_false_iff.mpr fun h => by have := (flush1_3 _).mp h; dsimp only at this; omega)
    live1_3 (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks; the parity of the point says which case it is in;
    at an odd point the output's buffer holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 2 = 0
  · rw [outsAt1_A V c t h0]
    unfold out1_A
    iintro ⟨HΦ, Ho, ⟨%d0, H0⟩, ⟨%d1, H1⟩, ⟨%d2, H2⟩, ⟨%d3, H3⟩⟩
    iapply ((kernelRun1_A c (grid1.coords t) _ _ _ _ _ _ _ _ (hA1 t h0) (hA2 t h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A c _ _ _ _ _ _ _ _ _ _ _ _ _ _)
  · rw [outsAt1_B V c t h0]
    simp only [before1_3_B V c t h0]
    unfold out1_B
    iintro ⟨HΦ, Ho, ⟨%d0, H0⟩, ⟨%d1, H1⟩, ⟨%d2, H2⟩, ⟨%d3, H3⟩⟩
    iapply ((kernelRun1_B c (grid1.coords t) _ _ _ _ _ _ _ _ (hB1 t h0) (hB2 t h0) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B c _ _ _ _ _ _ _ _ _ _ _ _ _ _ _)

theorem body_obligation1 (c : Dev nD) : BodyObligation (dat1 (F := F) V c) (defs₀ (F := F)) Variants.none () Set.univ := fun t => by
  rw [bigSep_W1, bigSep_W1]
  have hl : idle1 3 (grid1.coords t) = false := live1_3 _
  have hl' : cfg1.idle 3 (cfg1.grid.coords t) = false := live1_3 _
  first | rw [hl] | rw [hl'] | (dsimp only []; rw [hl])
  exact sound_body1 V c t

end

end Cert.KernelIdeal.Fr

end
-- ==== Proof.KI.Frame.lean ====
/-
  The whole run of @main: the host stretch (the two weight stacks), then the two pallas_calls, as a sequence of
  segments. The buffer contents at each boundary are a fold from the launch memory: after the host stretch, after
  the first call (its output array at what the pipeline's write-backs leave), after the second. Every weakly fair
  execution terminates with the result array at the second pipeline's folded write-backs and every argument array
  as launched.
-/
import proofs.«153490_g76459007803594_cont_9to1_m_617_26_alg».proof.Proof.KI.Region0
import proofs.«153490_g76459007803594_cont_9to1_m_617_26_alg».proof.Proof.KI.Region1
import proofs.«153490_g76459007803594_cont_9to1_m_617_26_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch, and after the host stretch (the first call's entry). -/
abbrev B0 : Dev nD → Valuation τ sig (Elt F) := fun c => Gen.V0 m c
abbrev B1 : Dev nD → Valuation τ sig (Elt F) := fun c => Gen.V1 m c
abbrev E1 : (c : Dev nD) → (b : Ref sig .tc) → Buf (Elt F) ((c : Thread nD τ).loc b) := fun c b => B1 m c b
/-- At the first call's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- At the second call's exit. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### The arguments end as launched -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := (B3_arr m c 0).trans (((dat1 (E2 m) c).arrAt_in 0 rfl _).trans (A_eq1 (E2 m) c 0))
    _ = B1 m c (Proc.devRef .tc main_arg0) := (B2_arr m c 0).trans (((dat0 (E1 m) c).arrAt_in 0 rfl _).trans (A_eq0 (E1 m) c 0))
    _ = B0 m c (Proc.devRef .tc main_arg0) := Gen.V1_of m c main_arg0 (by decide)
    _ = m ((c : Thread nD τ).loc main_arg0) := rfl
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := (B2_arr m c 1).trans (((dat0 (E1 m) c).arrAt_in 1 rfl _).trans (A_eq0 (E1 m) c 1))
    _ = B0 m c (Proc.devRef .tc main_arg1) := Gen.V1_of m c main_arg1 (by decide)
    _ = m ((c : Thread nD τ).loc main_arg1) := rfl
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := Gen.V1_of m c main_arg2 (by decide)
    _ = m ((c : Thread nD τ).loc main_arg2) := rfl
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := Gen.V1_of m c main_arg3 (by decide)
    _ = m ((c : Thread nD τ).loc main_arg3) := rfl
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := Gen.V1_of m c main_arg4 (by decide)
    _ = m ((c : Thread nD τ).loc main_arg4) := rfl
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = B0 m c (Proc.devRef .tc main_arg5) := Gen.V1_of m c main_arg5 (by decide)
    _ = m ((c : Thread nD τ).loc main_arg5) := rfl

/-- The result array at the end: the second pipeline's write-backs folded over its entry contents. -/
def result (c : Dev nD) : Buf (Elt F) ((c.tc : Thread nD τ).loc main_v7) := (dat1 (E2 m) c).arrAt 3 cfg1.N
theorem B3_main_v7 (c : Dev nD) : B3 m c (Proc.devRef .tc main_v7) = result m c := B3_arr m c 3

/-! ## The proof data family and the thread state -/

/-- Every pipeline's proof data, each at its region's entry contents. -/
def pdatsF : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱F : Variants := Variants.none
abbrev LF : GSem nD τ sig → Finset Unit := fun _ => ∅
abbrev lvF : GSem nD τ sig → Unit → ℕ := fun _ _ => 0
/-- What rides beside the buffers through every segment: the core's generator register at some state and its dues, at nothing. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnF (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The first call over the thread state: entered from every unscoped buffer at `B1`, left at `B2`. -/
def regA : Pipeline.RegionSeg (pcfgs (F := F)) Gen.adm (pdatsF m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LF lvF 0 fun _ _ => rfl
  pre c := iprop(StableHlo.held (c : Thread nD τ) (Pipeline.ucRefs τ sig) (B1 m c) ∗ RF c)
  post c := iprop(StableHlo.held (c : Thread nD τ) (Pipeline.ucRefs τ sig) (B2 m c) ∗ RF c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdatsF m) launch0.win launch0.arr_whole c
      ((pdatsF m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdatsF m) ((pdatsF m 0 c).share_full fun _ => rfl)
      (E1 m c) (E2 m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `B2`, left at `B3`. -/
def regB : Pipeline.RegionSeg (pcfgs (F := F)) Gen.adm (pdatsF m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ LF lvF 1 fun _ _ => rfl
  pre c := iprop(StableHlo.held (c : Thread nD τ) (Pipeline.ucRefs τ sig) (B2 m c) ∗ RF c)
  post c := iprop(TnF m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdatsF m) launch1.win launch1.arr_whole c
      ((pdatsF m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdatsF m) ((pdatsF m 1 c).share_full fun _ => rfl)
      (E2 m c) (E3 m c) ((pdatsF m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsF : List (Pipeline.Seg (pcfgs (F := F)) Gen.adm (pdatsF m) () defs₀ 𝒱F LF lvF) :=
  [ .host (hsegF hostOps0 hostOps0_sub Gen.hostOps0_fresh (B0 m)),
    .region (regA m),
    .region (regB m) ]
theorem main_run (c : Dev nD) : main (F := F) c = Pipeline.Seg.run (segsF m) := (main_chain c).trans (by chain_rfl)

set_option backward.isDefEq.respectTransparency.types false in
/-- THE RUN: from any memory with zero counters, every weakly fair execution of @main terminates, nothing faulting,
    with the result array at `result` and every argument array as launched. -/
theorem run (ρ : Dev nD → PrngReg) : θ_run defs (onTc (τ := τ) (main (F := F))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) Gen.adm (pdatsF m) () cellOf_inj emb₁ defs₀ 𝒱F LF lvF m ρ main (segsF m)
    (fun c Q => by rw [main_run m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RF c)) (Tₙ := TnF m)
    (hch := ⟨fun _ => .rfl, fun _ => .rfl, fun _ => .rfl, fun _ => .rfl⟩)
    (hinit := by
      refine Pipeline.initEach LF lvF fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c =>
      ⟨(h c _ (mem_uc main_v7 (by decide))).trans (B3_main_v7 m c),
       (h c _ (mem_uc main_arg0 (by decide))).trans (B3_main_arg0 m c),
       (h c _ (mem_uc main_arg1 (by decide))).trans (B3_main_arg1 m c),
       (h c _ (mem_uc main_arg2 (by decide))).trans (B3_main_arg2 m c),
       (h c _ (mem_uc main_arg3 (by decide))).trans (B3_main_arg3 m c),
       (h c _ (mem_uc main_arg4 (by decide))).trans (B3_main_arg4 m c),
       (h c _ (mem_uc main_arg5 (by decide))).trans (B3_main_arg5 m c)⟩)

/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.KernelIdeal.Fr

end
-- ==== Proof.LibGraphLaws.lean ====
/-
  GENERAL LEMMAS on the extended reals (no program imported): powers of zero and of squares against quotients and square roots,
  with the float words 0, 1, 2, 1/2, 1/4, −2 as reals. They are the laws that join the two programs of this certificate. Both compute one layer of a graph network:
  each atom's features are the square roots of the magnitudes of its inputs, a neighbour's contribution is weighted
  by the inverse squared length of the bond to it (the weights normalised to sum to one), and each bond is updated
  from its two end atoms, whose features are normalised by their column sums. The programs differ in how they spell
  four things, and each spelling agrees on the reals where the certificate's precondition puts the inputs:

    * the fourth root of a square against the square root of a magnitude:   (a²)^(1/4) = √|a|          (every real a);
    * a square root raised to the power −2 against a reciprocal:            (s^(1/2))^(−2) = 1/s       (s > 0);
    * a quotient against a product with a reciprocal:                       x / d = x · (1/d)          (d ≠ 0 real);
    * the magnitude of a value clamped at zero against the value:           |max y 0| = max y 0.

  The second law is where the precondition's positivity of every bond's squared length is used: at s = 0 the power
  is 0 and the quotient is +∞.
-/
import Idealize.ShloMosaic.PureOps.Ideal

noncomputable section

namespace Cert.GraphLaws

open Idealize.ShloMosaic

/-! ## The float words the two programs spell, as reals -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul]; norm_num

/-! ## The four laws -/

/-- The fourth root of a real's square is the square root of its magnitude. -/
theorem pow_two_quarter (a : ℝ) :
    Ideal.pow (Ideal.pow (a : EReal) ((2 : ℝ) : EReal)) ((1 / 4 : ℝ) : EReal)
      = Ideal.sqrt (max (a : EReal) (-(a : EReal))) := by
  have h : ((a ^ (2 : ℝ)) ^ ((1 : ℝ) / 4)) = Real.sqrt |a| := by
    rw [Real.rpow_two, ← sq_abs, ← Real.rpow_two, ← Real.rpow_mul (abs_nonneg a), Real.sqrt_eq_rpow]
    norm_num
  have hm : max (a : EReal) (-(a : EReal)) = ((|a| : ℝ) : EReal) := by
    rw [← EReal.coe_neg]
    rcases le_total 0 a with h | h
    · rw [abs_of_nonneg h, max_eq_left]; exact EReal.coe_le_coe_iff.mpr (by linarith)
    · rw [abs_of_nonpos h, max_eq_right]; exact EReal.coe_le_coe_iff.mpr (by linarith)
  rw [hm, Ideal.pow_coe_coe, Ideal.pow_coe_coe, Ideal.sqrt_coe, if_neg (not_lt.mpr (abs_nonneg a))]
  exact congrArg _ h

/-- A positive real's square root, raised to the power −2, is its reciprocal. -/
theorem pow_half_neg_two {s : ℝ} (hs : 0 < s) :
    Ideal.pow (Ideal.pow (s : EReal) ((1 / 2 : ℝ) : EReal)) ((-2 : ℝ) : EReal) = Ideal.div 1 (s : EReal) := by
  have h : ((s ^ ((1 : ℝ) / 2)) ^ (-2 : ℝ)) = 1 / s := by
    rw [← Real.rpow_mul hs.le, show ((1 : ℝ) / 2) * (-2) = -1 by norm_num, Real.rpow_neg_one, one_div]
  rw [Ideal.pow_coe_coe, Ideal.pow_coe_coe, Ideal.div_coe hs.ne', one_mul]
  exact congrArg _ h

/-- Dividing by a non-zero real is multiplying by its reciprocal. -/
theorem div_eq_mul_recip {d : ℝ} (hd : d ≠ 0) (x : EReal) :
    Ideal.div x (d : EReal) = x * Ideal.div 1 (d : EReal) := by
  rw [Ideal.div_coe hd, Ideal.div_coe hd, one_mul]

/-- A value clamped at zero is its own magnitude. -/
theorem abs_max_zero (y : EReal) : max (max y 0) (-(max y 0)) = max y 0 := by
  have h0 : (0 : EReal) ≤ max y 0 := le_max_right _ _
  have h1 : -(max y 0) ≤ 0 := by
    have h := EReal.neg_le_neg_iff.mpr h0
    rwa [neg_zero] at h
  exact max_eq_left (h1.trans h0)

end Cert.GraphLaws

end
-- ==== Proof.Spec.lean ====
/-
  The mathematics both programs compute, over the extended reals, written once with explicit coordinates.

  There are two graphs j = 0, 1, each with a dense 4096 × 4096 adjacency matrix A_j, node features X_j (4096 × 512)
  and two 512 × 512 weight matrices. One graph-convolution step sends features h to

      mix(h)(n, d) = 0.9 · Σ_k A_j(n, k) · h(k, d) + 0.1 · h(n, d),        lin(T, W)(n, e) = Σ_d T(n, d) · W(d, e).

  The hidden features are  hid_j = max(lin(mix(X_j), W0_j), 0),  the top features  top_j = lin(mix(hid_j), W1_j),
  and the result is the mean of top_0 and top_1. The kernel halves each top_j and adds the halves; the reference adds
  first (starting from a zero) and divides by two. On the extended reals these agree for every pair of values:
  multiplying by the positive real 1/2 distributes over any sum, infinite terms included.
-/
import Idealize.ShloMosaic.PureOps.Ideal.Laws
import Idealize.ShloMosaic.Lib.ValueIdx
import proofs.«153490_g76459007803594_cont_9to1_m_617_26_alg».proof.Proof.LibGraphLaws

noncomputable section

open scoped BigOperators

namespace Cert.Spec

open Idealize.ShloMosaic Idealize.ShloMosaic.ValueIdx

/-- The float words the two programs spell, at their exact binary values. -/
abbrev w09 : EReal := Ideal.ofBits .f32 0x3F666666#32
abbrev w01 : EReal := Ideal.ofBits .f32 0x3DCCCCCD#32
abbrev wHalf : EReal := Ideal.ofBits .f32 0x3F000000#32
abbrev wTwo : EReal := Ideal.ofBits .f32 0x40000000#32
abbrev wZero : EReal := Ideal.ofBits .f32 0x00000000#32

abbrev Adj := (⟨3, ![2, 4096, 4096]⟩ : Shape).Idx → EReal
abbrev Feat := (⟨3, ![2, 4096, 512]⟩ : Shape).Idx → EReal
abbrev Wt := (⟨2, ![512, 512]⟩ : Shape).Idx → EReal

/-- Graph j's residual mix of features h at (n, d). -/
def mix (adj : Adj) (j : Fin 2) (h : Fin 4096 → Fin 512 → EReal) (n : Fin 4096) (d : Fin 512) : EReal :=
  w09 * (∑ k : Fin 4096, adj (ix3 j n k) * h k d) + w01 * h n d

/-- The feature transform by a weight matrix at (n, e). -/
def lin (T : Fin 4096 → Fin 512 → EReal) (W : Wt) (n : Fin 4096) (e : Fin 512) : EReal :=
  ∑ d : Fin 512, T n d * W (ix2 d e)

/-- Graph j's hidden features: the first layer, clamped at zero. -/
def hid (adj : Adj) (x : Feat) (W : Wt) (j : Fin 2) (n : Fin 4096) (e : Fin 512) : EReal :=
  max (lin (mix adj j fun k d => x (ix3 j k d)) W n e) wZero

/-- Graph j's top features: the second layer over the hidden ones. -/
def top (adj : Adj) (x : Feat) (W0 W1 : Wt) (j : Fin 2) (n : Fin 4096) (e : Fin 512) : EReal :=
  lin (mix adj j (hid adj x W0 j)) W1 n e

/-- The result as the kernel spells it: each graph's top features halved, then added. -/
def outK (adj : Adj) (x : Feat) (W00 W01 W10 W11 : Wt) : (⟨2, ![4096, 512]⟩ : Shape).Idx → EReal :=
  fun i => top adj x W00 W10 0 (i 0) (i 1) * wHalf + top adj x W01 W11 1 (i 0) (i 1) * wHalf

/-- Halving distributes over any sum of extended reals, and dividing by two is halving; a leading zero adds nothing. -/
theorem mean_two (a b : EReal) : Ideal.div ((wZero + a) + b) wTwo = a * wHalf + b * wHalf := by
  show Ideal.div ((Ideal.ofBits .f32 0x00000000#32 + a) + b) (Ideal.ofBits .f32 0x40000000#32)
    = a * Ideal.ofBits .f32 0x3F000000#32 + b * Ideal.ofBits .f32 0x3F000000#32
  rw [Cert.GraphLaws.ofBits_zero, Cert.GraphLaws.ofBits_two, Cert.GraphLaws.ofBits_half, zero_add,
    Ideal.div_coe (by norm_num : (2 : ℝ) ≠ 0)]
  exact EReal.right_distrib_of_nonneg_of_ne_top (EReal.coe_nonneg.mpr (by norm_num)) (EReal.coe_ne_top _) a b

end Cert.Spec

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.KI.Pay.lean ====
/-
  The two kernel bodies' arithmetic, read at one element over the extended reals. Every change of float format is
  the identity there, a matrix-unit product into a zero accumulator is the plain sum of products over the
  contracted coordinate, and a leading unit axis only renames coordinates; so each body's stored value at row p,
  column q is a layer of the graph network evaluated at that row of the loaded blocks.
-/
import proofs.«153490_g76459007803594_cont_9to1_m_617_26_alg».proof.Proof.Gen.KernelIdeal.Skeleton
import proofs.«153490_g76459007803594_cont_9to1_m_617_26_alg».proof.Proof.Spec
import proofs.«153490_g76459007803594_cont_9to1_m_617_26_alg».proof.Proof.LibPlainDot
import Idealize.ShloMosaic.Lib.ValueLayout
import Idealize.ShloMosaic.Lib.Pipeline.Value

noncomputable section

open scoped BigOperators

namespace Cert.KernelIdeal.Val

open Cert.KernelIdeal Cert.KernelIdeal.Gen Cert.Spec Idealize.ShloMosaic Idealize.ShloMosaic.ValueIdx

/-- The two contractions' dimension numbers: rows × contracted against contracted × columns. -/
abbrev DA : DotDims S1024x4096 S4096x512 S1024x512 := dot_S1024x4096_S4096x512_S1024x512_1_0_0_1_n_n
abbrev DB : DotDims S1024x512 S512x512 S1024x512 := dot_S1024x512_S512x512_S1024x512_1_0_0_1_n_n

theorem DA_l0 (i : S1024x512.Idx) (q : DA.contr.Idx) : (DA.lhsIdx i q 0).val = (i 0).val := by
  unfold DotDims.lhsIdx
  rw [dif_neg (show ¬(0 : Fin S1024x4096.rank) ∈ DA.lhsBatch by decide), dif_pos (show (0 : Fin S1024x4096.rank) ∈ DA.lhsNonContracting by decide)]
  rfl
theorem DA_l1 (i : S1024x512.Idx) (q : DA.contr.Idx) : (DA.lhsIdx i q 1).val = (q ⟨0, by decide⟩).val :=
  DA.lhsIdx_val_of_single rfl i q
theorem DA_r0 (i : S1024x512.Idx) (q : DA.contr.Idx) : (DA.rhsIdx i q 0).val = (q ⟨0, by decide⟩).val :=
  DA.rhsIdx_val_of_single rfl i q
theorem DA_r1 (i : S1024x512.Idx) (q : DA.contr.Idx) : (DA.rhsIdx i q 1).val = (i 1).val := by
  unfold DotDims.rhsIdx
  rw [dif_neg (show ¬(1 : Fin S4096x512.rank) ∈ DA.rhsBatch by decide), dif_pos (show (1 : Fin S4096x512.rank) ∈ DA.rhsNonContracting by decide)]
  rfl
theorem DB_l0 (i : S1024x512.Idx) (q : DB.contr.Idx) : (DB.lhsIdx i q 0).val = (i 0).val := by
  unfold DotDims.lhsIdx
  rw [dif_neg (show ¬(0 : Fin S1024x512.rank) ∈ DB.lhsBatch by decide), dif_pos (show (0 : Fin S1024x512.rank) ∈ DB.lhsNonContracting by decide)]
  rfl
theorem DB_l1 (i : S1024x512.Idx) (q : DB.contr.Idx) : (DB.lhsIdx i q 1).val = (q ⟨0, by decide⟩).val :=
  DB.lhsIdx_val_of_single rfl i q
theorem DB_r0 (i : S1024x512.Idx) (q : DB.contr.Idx) : (DB.rhsIdx i q 0).val = (q ⟨0, by decide⟩).val :=
  DB.rhsIdx_val_of_single rfl i q
theorem DB_r1 (i : S1024x512.Idx) (q : DB.contr.Idx) : (DB.rhsIdx i q 1).val = (i 1).val := by
  unfold DotDims.rhsIdx
  rw [dif_neg (show ¬(1 : Fin S512x512.rank) ∈ DB.rhsBatch by decide), dif_pos (show (1 : Fin S512x512.rank) ∈ DB.rhsNonContracting by decide)]
  rfl

/-- The panel-by-features product at (p, q): the sum over the 4096 source nodes. -/
theorem mmA (l : FVec Ideal S1024x4096 .bf16) (r : FVec Ideal S4096x512 .bf16) (p : Fin 1024) (q : Fin 512) :
    matmul DA none l r (constant S1024x512 .f32 0x00000000#32) (ix2 p q) = ∑ k : Fin 4096, l (ix2 p k) * r (ix2 k q) :=
  (Ideal.matmul_constant_zero_apply DA none l r (ix2 p q)).trans
    (Cert.Lib.PlainDot.contraction_sum DA rfl rfl DA_l0 DA_l1 DA_r0 DA_r1 l r p q)

/-- The feature transform at (p, q): the sum over the 512 input features. -/
theorem mmB (l : FVec Ideal S1024x512 .bf16) (r : FVec Ideal S512x512 .bf16) (p : Fin 1024) (q : Fin 512) :
    matmul DB none l r (constant S1024x512 .f32 0x00000000#32) (ix2 p q) = ∑ k : Fin 512, l (ix2 p k) * r (ix2 k q) :=
  (Ideal.matmul_constant_zero_apply DB none l r (ix2 p q)).trans
    (Cert.Lib.PlainDot.contraction_sum DB rfl rfl DB_l0 DB_l1 DB_r0 DB_r1 l r p q)

/-- The first kernel's stored value at (p, q) of its block: the first layer at row p of the loaded panel, clamped at
    zero — the adjacency panel `v0`, the graph's features `v3`, the panel's own feature rows `v9`, the weights `v17`. -/
theorem pay0_apply (v0 : Vec Ideal S1x1024x4096 .f32) (v3 : Vec Ideal S1x4096x512 .f32) (v9 : Vec Ideal S1x1024x512 .f32)
    (v17 : Vec Ideal S1x512x512 .f32) (u : Fin 1) (p : Fin 1024) (q : Fin 512) :
    k0_pay1 v0 v3 v9 v17 (ix3 u p q)
      = max (∑ d : Fin 512, (w09 * (∑ k : Fin 4096, v0 (ix3 0 p k) * v3 (ix3 0 k d)) + w01 * v9 (ix3 0 p d)) * v17 (ix3 0 d q)) wZero := by
  unfold k0_pay1
  refine (shapeCast_ab_1ab_apply _ _ u p q).trans ?_
  refine congrArg (fun z => max z wZero) ?_
  refine (mmB _ _ p q).trans (Finset.sum_congr rfl fun d _ => ?_)
  refine congrArg₂ (· * ·) ?_ (shapeCast_1ab_ab_apply v17 _ d q)
  refine congrArg₂ (· + ·) (congrArg (w09 * ·) ?_) (congrArg (w01 * ·) (shapeCast_1ab_ab_apply v9 _ p d))
  exact (mmA _ _ p d).trans (Finset.sum_congr rfl fun k _ =>
    congrArg₂ (· * ·) (shapeCast_1ab_ab_apply v0 _ p k) (shapeCast_1ab_ab_apply v3 _ k d))

/-- The second kernel's contribution at (p, q): the second layer at row p of the loaded panel, halved. -/
theorem pay1_apply (v0 : Vec Ideal S1x1024x4096 .f32) (v4 : Vec Ideal S1x4096x512 .bf16) (v10 : Vec Ideal S1x1024x512 .bf16)
    (v20 : Vec Ideal S1x512x512 .f32) (p : Fin 1024) (q : Fin 512) :
    k1_pay1 v0 v4 v10 v20 (ix2 p q)
      = (∑ d : Fin 512, (w09 * (∑ k : Fin 4096, v0 (ix3 0 p k) * v4 (ix3 0 k d)) + w01 * v10 (ix3 0 p d)) * v20 (ix3 0 d q)) * wHalf := by
  unfold k1_pay1
  refine congrArg (· * wHalf) ?_
  refine (mmB _ _ p q).trans (Finset.sum_congr rfl fun d _ => ?_)
  refine congrArg₂ (· * ·) ?_ (shapeCast_1ab_ab_apply v20 _ d q)
  refine congrArg₂ (· + ·) (congrArg (w09 * ·) ?_) (congrArg (w01 * ·) (shapeCast_1ab_ab_apply v10 _ p d))
  exact (mmA _ _ p d).trans (Finset.sum_congr rfl fun k _ =>
    congrArg₂ (· * ·) (shapeCast_1ab_ab_apply v0 _ p k) (shapeCast_1ab_ab_apply v4 _ k d))

/-- The accumulating store's value: what the block held plus the contribution. -/
theorem pay2_apply (v0 : Vec Ideal S1x1024x4096 .f32) (v4 : Vec Ideal S1x4096x512 .bf16) (v10 : Vec Ideal S1x1024x512 .bf16)
    (v20 : Vec Ideal S1x512x512 .f32) (v32 : Vec Ideal S1024x512 .f32) (y : S1024x512.Idx) :
    k1_pay2 v0 v4 v10 v20 v32 y = v32 y + k1_pay1 v0 v4 v10 v20 y := by
  unfold k1_pay2
  exact congrArg (· + k1_pay1 v0 v4 v10 v20 y) (congrFun (shapeCast_self v32 _) y)

/-- A two-matrix stack (each matrix given a leading unit axis, the two laid end to end) read at (j, d, e): matrix j at (d, e). -/
theorem stack_at (hb : S512x512.BroadcastsInDim S1x512x512 ![1, 2]) (hc : Shape.Concatenates [S1x512x512, S1x512x512] S2x512x512 0)
    (a b : S512x512.Idx → EReal) (j : Fin 2) (d e : Fin 512) :
    concatenate S2x512x512 0 [⟨S1x512x512, broadcastInDim S1x512x512 ![1, 2] hb a⟩, ⟨S1x512x512, broadcastInDim S1x512x512 ![1, 2] hb b⟩] hc (ix3 j d e)
      = (if j.val = 0 then a else b) (ix2 d e) := by
  obtain ⟨jv, hj⟩ := j
  have hjv : jv = 0 ∨ jv = 1 := by omega
  rcases hjv with rfl | rfl
  · refine (concatenate_pair_apply_left (t := S2x512x512) (s₁ := S1x512x512) (s₂ := S1x512x512) 0 _ _ hc (ix3 ⟨0, hj⟩ d e) rfl
      (ix3 (0 : Fin 1) d e) (fun x => ?_)).trans ?_
    · match x with
      | ⟨0, _⟩ => rfl
      | ⟨1, _⟩ => rfl
      | ⟨2, _⟩ => rfl
    · exact broadcastInDim_apply _ hb a _ (ix2 d e) (fun x => by match x with | ⟨0, _⟩ => rfl | ⟨1, _⟩ => rfl)
  · refine (concatenate_pair_apply_right (t := S2x512x512) (s₁ := S1x512x512) (s₂ := S1x512x512) 0 _ _ hc (ix3 ⟨1, hj⟩ d e) rfl rfl
      (ix3 (0 : Fin 1) d e) (fun x hx => ?_) rfl).trans ?_
    · match x with
      | ⟨0, _⟩ => exact absurd rfl hx
      | ⟨1, _⟩ => rfl
      | ⟨2, _⟩ => rfl
    · exact broadcastInDim_apply _ hb b _ (ix2 d e) (fun x => by match x with | ⟨0, _⟩ => rfl | ⟨1, _⟩ => rfl)

/-- The first kernel's block, where its loaded blocks are rows of graph j's arrays: row p of the block is the hidden
    features of node `n p`. -/
theorem block0 (adj : Adj) (x : Feat) (W : Wt) (j : Fin 2) (n : Fin 1024 → Fin 4096)
    (x0 : Vec Ideal S1x1024x4096 .f32) (x1 : Vec Ideal S1x4096x512 .f32) (v9 : Vec Ideal S1x1024x512 .f32) (x2 : Vec Ideal S1x512x512 .f32)
    (h0 : ∀ p k, x0 (ix3 0 p k) = adj (ix3 j (n p) k)) (h1 : ∀ k d, x1 (ix3 0 k d) = x (ix3 j k d))
    (h9 : ∀ p d, v9 (ix3 0 p d) = x (ix3 j (n p) d)) (h2 : ∀ d e, x2 (ix3 0 d e) = W (ix2 d e))
    (u : Fin 1) (p : Fin 1024) (q : Fin 512) :
    k0_pay1 x0 x1 v9 x2 (ix3 u p q) = hid adj x W j (n p) q := by
  rw [pay0_apply]
  unfold hid lin mix
  simp only [h0, h1, h9, h2]

/-- The second kernel's contribution, where its loaded blocks are rows of graph j's adjacency and hidden features `H`:
    row p is half the top features of node `n p`. -/
theorem block1 (adj : Adj) (H : Fin 4096 → Fin 512 → EReal) (W : Wt) (j : Fin 2) (n : Fin 1024 → Fin 4096)
    (x0 : Vec Ideal S1x1024x4096 .f32) (v4 : Vec Ideal S1x4096x512 .bf16) (v10 : Vec Ideal S1x1024x512 .bf16) (v20 : Vec Ideal S1x512x512 .f32)
    (h0 : ∀ p k, x0 (ix3 0 p k) = adj (ix3 j (n p) k)) (h4 : ∀ k d, v4 (ix3 0 k d) = H k d)
    (h10 : ∀ p d, v10 (ix3 0 p d) = H (n p) d) (h20 : ∀ d e, v20 (ix3 0 d e) = W (ix2 d e))
    (p : Fin 1024) (q : Fin 512) :
    k1_pay1 x0 v4 v10 v20 (ix2 p q) = lin (mix adj j H) W (n p) q * wHalf := by
  rw [pay1_apply]
  unfold lin mix
  simp only [h0, h4, h10, h20]

end Cert.KernelIdeal.Val

end
-- ==== Proof.KI.Val0.lean ====
/-
  What the first pallas_call leaves in its output array. Its grid point t = 4j + r handles graph j's row panel r
  (rows 1024r … 1024r + 1023): the adjacency panel, the graph's whole feature matrix (from which the body also
  reads the panel's own rows), and the graph's first-layer weights out of the two-matrix stack the host built.
  Each point writes its 1024 × 512 block back, the eight blocks tile the array, so the array ends holding every
  graph's hidden features, node by node.
-/
import proofs.«153490_g76459007803594_cont_9to1_m_617_26_alg».proof.Proof.KI.Frame
import proofs.«153490_g76459007803594_cont_9to1_m_617_26_alg».proof.Proof.KI.Pay

set_option maxRecDepth 16384

noncomputable section

open scoped BigOperators

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## The arrays the region finds -/

theorem E1_arg0 : E1 m c main_arg0 = m ((c.tc : Thread nD τ).loc main_arg0) := Gen.V1_of m c main_arg0 (by decide)
theorem E1_arg1 : E1 m c main_arg1 = m ((c.tc : Thread nD τ).loc main_arg1) := Gen.V1_of m c main_arg1 (by decide)

/-- The first-layer weights as the host stacked them, read at (j, d, e). -/
theorem E1_v2_at (j : Fin 2) (d e : Fin 512) :
    E1 m c main_v2 (ix3 j d e)
      = (if j.val = 0 then m ((c.tc : Thread nD τ).loc main_arg2) else m ((c.tc : Thread nD τ).loc main_arg3)) (ix2 d e) := by
  have e2 : (E1 m c main_v2 : S2x512x512.Idx → EReal)
      = concatenate S2x512x512 0 [⟨S1x512x512, broadcastInDim S1x512x512 ![1, 2] bcast_S512x512_S1x512x512_1_2 (m ((c.tc : Thread nD τ).loc main_arg2))⟩,
          ⟨S1x512x512, broadcastInDim S1x512x512 ![1, 2] bcast_S512x512_S1x512x512_1_2 (m ((c.tc : Thread nD τ).loc main_arg3))⟩]
          concatenates_S1x512x512_S1x512x512_S2x512x512_d0 := by
    show StableHlo.after hostOps0 (fun b => m (c, b)) (Proc.devRef .tc main_v2) = _
    after_results
  rw [e2]
  exact stack_at _ _ _ _ j d e

/-- The second-layer weights as the host stacked them, read at (j, d, e). -/
theorem E1_v5_at (j : Fin 2) (d e : Fin 512) :
    E1 m c main_v5 (ix3 j d e)
      = (if j.val = 0 then m ((c.tc : Thread nD τ).loc main_arg4) else m ((c.tc : Thread nD τ).loc main_arg5)) (ix2 d e) := by
  have e5 : (E1 m c main_v5 : S2x512x512.Idx → EReal)
      = concatenate S2x512x512 0 [⟨S1x512x512, broadcastInDim S1x512x512 ![1, 2] bcast_S512x512_S1x512x512_1_2 (m ((c.tc : Thread nD τ).loc main_arg4))⟩,
          ⟨S1x512x512, broadcastInDim S1x512x512 ![1, 2] bcast_S512x512_S1x512x512_1_2 (m ((c.tc : Thread nD τ).loc main_arg5))⟩]
          concatenates_S1x512x512_S1x512x512_S2x512x512_d0 := by
    show StableHlo.after hostOps0 (fun b => m (c, b)) (Proc.devRef .tc main_v5) = _
    after_results
  rw [e5]
  exact stack_at _ _ _ _ j d e

/-! ## The grid's points and the windows' blocks -/

/-- The printed index maps, decided over the grid: point t is graph t / 4, row panel t % 4. -/
theorem idx0 : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0
    ∧ (grid0.coords t 1).val = t.val % 4 :=
  (by decide +kernel : ∀ t : Fin grid0.N, _)

theorem lt8 (t : Fin cfg0.N) : t.val < 8 := lt_of_lt_of_eq t.isLt (show cfg0.N = 8 from N_0)

/-- Point t's graph, and the node its block's row p holds. -/
def gr0 (t : Fin cfg0.N) : Fin 2 := ⟨t.val / 4, by have := lt8 t; omega⟩
def nd0 (t : Fin cfg0.N) (p : Fin 1024) : Fin 4096 := ⟨1024 * (t.val % 4) + p.val, by have := p.isLt; omega⟩

theorem emb0_0 (t : Fin cfg0.N) (u : Fin 1) (p : Fin 1024) (k : Fin 4096) :
    ((cfg0.win 0).blk t).view.emb (ix3 u p k) = ix3 (gr0 t) (nd0 t p) k := by
  obtain ⟨e0, e1, e2, -⟩ := idx0 t
  have hu := u.isLt
  funext a; apply Fin.ext
  match a with
  | ⟨0, _⟩ => show win0_0.index t (0 : Fin 3) * 1 + 1 * u.val = t.val / 4; omega
  | ⟨1, _⟩ => show win0_0.index t (1 : Fin 3) * 1024 + 1 * p.val = 1024 * (t.val % 4) + p.val; omega
  | ⟨2, _⟩ => show win0_0.index t (2 : Fin 3) * 4096 + 1 * k.val = k.val; omega
theorem emb0_1 (t : Fin cfg0.N) (u : Fin 1) (k : Fin 4096) (d : Fin 512) :
    ((cfg0.win 1).blk t).view.emb (ix3 u k d) = ix3 (gr0 t) k d := by
  obtain ⟨-, -, -, e0, e1, e2, -⟩ := idx0 t
  have hu := u.isLt
  funext a; apply Fin.ext
  match a with
  | ⟨0, _⟩ => show win0_1.index t (0 : Fin 3) * 1 + 1 * u.val = t.val / 4; omega
  | ⟨1, _⟩ => show win0_1.index t (1 : Fin 3) * 4096 + 1 * k.val = k.val; omega
  | ⟨2, _⟩ => show win0_1.index t (2 : Fin 3) * 512 + 1 * d.val = d.val; omega
theorem emb0_2 (t : Fin cfg0.N) (u : Fin 1) (d e : Fin 512) :
    ((cfg0.win 2).blk t).view.emb (ix3 u d e) = ix3 (gr0 t) d e := by
  obtain ⟨-, -, -, -, -, -, e0, e1, e2, -⟩ := idx0 t
  have hu := u.isLt
  funext a; apply Fin.ext
  match a with
  | ⟨0, _⟩ => show win0_2.index t (0 : Fin 3) * 1 + 1 * u.val = t.val / 4; omega
  | ⟨1, _⟩ => show win0_2.index t (1 : Fin 3) * 512 + 1 * d.val = d.val; omega
  | ⟨2, _⟩ => show win0_2.index t (2 : Fin 3) * 512 + 1 * e.val = e.val; omega
theorem emb0_3 (t : Fin cfg0.N) (u : Fin 1) (p : Fin 1024) (q : Fin 512) :
    ((cfg0.win 3).blk t).view.emb (ix3 u p q) = ix3 (gr0 t) (nd0 t p) q := by
  obtain ⟨-, -, -, -, -, -, -, -, -, e0, e1, e2, -⟩ := idx0 t
  have hu := u.isLt
  funext a; apply Fin.ext
  match a with
  | ⟨0, _⟩ => show win0_3.index t (0 : Fin 3) * 1 + 1 * u.val = t.val / 4; omega
  | ⟨1, _⟩ => show win0_3.index t (1 : Fin 3) * 1024 + 1 * p.val = 1024 * (t.val % 4) + p.val; omega
  | ⟨2, _⟩ => show win0_3.index t (2 : Fin 3) * 512 + 1 * q.val = q.val; omega

/-- The body's second load of the feature block, at the panel's row offset, reads the panel's own rows. -/
theorem off0 (t : Fin cfg0.N) (inb : ∀ a, k0_off1 (grid0.coords t) a + S1x1024x512.size a ≤ S1x4096x512.size a) (u : Fin 1) (p : Fin 1024) (d : Fin 512) :
    (Rect.unit (s := S1x4096x512) (k0_off1 (grid0.coords t)) S1x1024x512.size inb).emb (ix3 u p d) = ix3 (0 : Fin 1) (nd0 t p) d := by
  obtain ⟨-, -, -, -, -, -, -, -, -, -, -, -, ec⟩ := idx0 t
  have hu := u.isLt
  have ho := k0_off1_eq (grid0.coords t)
  funext a; apply Fin.ext
  rw [Rect.emb_apply]
  match a with
  | ⟨0, _⟩ => show k0_off1 (grid0.coords t) 0 + 1 * u.val = 0; rw [ho]; show 0 + 1 * u.val = 0; omega
  | ⟨1, _⟩ => show k0_off1 (grid0.coords t) 1 + 1 * p.val = 1024 * (t.val % 4) + p.val; rw [ho]; show 1024 * (grid0.coords t 1).val + 1 * p.val = _; omega
  | ⟨2, _⟩ => show k0_off1 (grid0.coords t) 2 + 1 * d.val = d.val; rw [ho]; show 0 + 1 * d.val = d.val; omega

/-- Each input window's block at point t, read at one element. -/
theorem read0_0 (t : Fin cfg0.N) (p : Fin 1024) (k : Fin 4096) :
    iblk0 (E1 m) c 0 t (ix3 (0 : Fin 1) p k) = m ((c.tc : Thread nD τ).loc main_arg0) (ix3 (gr0 t) (nd0 t p) k) := by
  show E1 m c main_arg0 (((cfg0.win 0).blk t).view.emb (ix3 (0 : Fin 1) p k)) = _
  rw [emb0_0, E1_arg0]
theorem read0_1 (t : Fin cfg0.N) (k : Fin 4096) (d : Fin 512) :
    iblk0 (E1 m) c 1 t (ix3 (0 : Fin 1) k d) = m ((c.tc : Thread nD τ).loc main_arg1) (ix3 (gr0 t) k d) := by
  show E1 m c main_arg1 (((cfg0.win 1).blk t).view.emb (ix3 (0 : Fin 1) k d)) = _
  rw [emb0_1, E1_arg1]
theorem read0_2 (t : Fin cfg0.N) (d e : Fin 512) :
    iblk0 (E1 m) c 2 t (ix3 (0 : Fin 1) d e)
      = (if (gr0 t).val = 0 then m ((c.tc : Thread nD τ).loc main_arg2) else m ((c.tc : Thread nD τ).loc main_arg3)) (ix2 d e) := by
  show E1 m c main_v2 (((cfg0.win 2).blk t).view.emb (ix3 (0 : Fin 1) d e)) = _
  rw [emb0_2, E1_v2_at]

/-! ## The output array -/

/-- Every graph's hidden features, as one array. -/
def hidArr (adj : Adj) (x : Feat) (W00 W01 : Wt) : (⟨3, ![2, 4096, 512]⟩ : Shape).Idx → EReal :=
  fun i => hid adj x (if (i 0).val = 0 then W00 else W01) (i 0) (i 1) (i 2)

theorem hz3 : (![0, 0, 0] : Fin 3 → Nat) = fun _ => 0 := funext fun a => by fin_cases a <;> rfl

/-- WHAT POINT t WRITES BACK is block t of the hidden-feature array. -/
theorem flushed0_eq (t : Fin cfg0.N) :
    (dat0 (E1 m) c).flushed 3 t = ((cfg0.win 3).blk t).view.read (Elt Ideal)
      (hidArr (m ((c.tc : Thread nD τ).loc main_arg0)) (m ((c.tc : Thread nD τ).loc main_arg1)) (m ((c.tc : Thread nD τ).loc main_arg2)) (m ((c.tc : Thread nD τ).loc main_arg3))) := by
  show (cfg0.win 3).cut (grid0.coords t) ((dat0 (E1 m) c).after 3 t) = _
  rw [after0_3]
  unfold outAt0 out0_3
  rw [View.read_writes_eq_canon _ _ _ (cover0_3 c _ _ _ _ _ _ _ _ _ _ _ _)]
  unfold kernelRun0
  dsimp only
  rw [View.canon_unit_zero hz3]
  simp only [View.readAt_eq_ld, Memref.IsWhole.read_unread, View.ld_unit_zero (S := S1x1024x4096) hz3,
    View.ld_unit_zero (S := S1x4096x512) hz3, View.ld_unit_zero (S := S1x512x512) hz3]
  refine funext fun (y : S1x1024x512.Idx) => ?_
  obtain ⟨u, p, q, rfl⟩ : ∃ (u : Fin 1) (p : Fin 1024) (q : Fin 512), y = ix3 u p q := ⟨y 0, y 1, y 2, eq_ix3 y⟩
  refine (block0 (m ((c.tc : Thread nD τ).loc main_arg0)) (m ((c.tc : Thread nD τ).loc main_arg1))
    (if (gr0 t).val = 0 then m ((c.tc : Thread nD τ).loc main_arg2) else m ((c.tc : Thread nD τ).loc main_arg3))
    (gr0 t) (nd0 t) _ _ _ _ (read0_0 m c t) (read0_1 m c t) (fun p d => ?_) (read0_2 m c t) u p q).trans ?_
  · show iblk0 (E1 m) c 1 t ((Rect.unit (s := S1x4096x512) (k0_off1 (grid0.coords t)) S1x1024x512.size _).emb (ix3 (0 : Fin 1) p d)) = _
    rw [off0, read0_1]
  · show _ = hidArr _ _ _ _ (((cfg0.win 3).blk t).view.emb (ix3 u p q))
    rw [emb0_3]
    rfl

/-- An index of the array is in point t's block iff each coordinate is in the block's range on its axis. -/
theorem mem_blk0 (t : Fin cfg0.N) (i : S2x4096x512.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v6).slice (win0_3.rect t)).set ↔ _
  rw [View.set_slice_whole, Rect.mem_set_unit]
  exact Iff.rfl

/-- Every index of the output array is in some point's block: the eight blocks tile it. -/
theorem cover0 (i : S2x4096x512.Idx) : ∃ t : Fin cfg0.N, (cfg0.win 3).flush t = true ∧ i ∈ ((cfg0.win 3).blk t).view.set := by
  have h0 : (i 0).val < 2 := (i 0).isLt
  have h1 : (i 1).val < 4096 := (i 1).isLt
  have h2 : (i 2).val < 512 := (i 2).isLt
  let t : Fin cfg0.N := ⟨4 * (i 0).val + (i 1).val / 1024, by rw [show cfg0.N = 8 from N_0]; omega⟩
  obtain ⟨-, -, -, -, -, -, -, -, -, e0, e1, e2, -⟩ := idx0 t
  have ht : t.val = 4 * (i 0).val + (i 1).val / 1024 := rfl
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

/-- THE ARRAY the first call leaves: every graph's hidden features. -/
theorem final0 : (dat0 (E1 m) c).arrAt 3 cfg0.N
    = hidArr (m ((c.tc : Thread nD τ).loc main_arg0)) (m ((c.tc : Thread nD τ).loc main_arg1)) (m ((c.tc : Thread nD τ).loc main_arg2)) (m ((c.tc : Thread nD τ).loc main_arg3)) :=
  (dat0 (E1 m) c).arrAt_eq_of_cover 3 _ (fun t _ => flushed0_eq m c t) cover0

end Cert.KernelIdeal.Val

end
-- ==== Proof.KI.Val1.lean ====
/-
  What the second pallas_call leaves in the result array. Its grid point t = 2r + j handles row panel r of graph j:
  the adjacency panel, the whole hidden-feature array the first call left (from which the body reads graph j's
  features and the panel's own rows), and graph j's second-layer weights out of the host's stack. The output block
  of panel r is overwritten with graph 0's halved top features at j = 0 and has graph 1's added at j = 1, after
  which it is written back; the four blocks tile the result.
-/
import proofs.«153490_g76459007803594_cont_9to1_m_617_26_alg».proof.Proof.KI.Val0

set_option maxRecDepth 16384

noncomputable section

open scoped BigOperators

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## The arrays the region finds -/

theorem E2_arg0 : E2 m c main_arg0 = m ((c.tc : Thread nD τ).loc main_arg0) :=
  ((B2_arr m c 0).trans (((dat0 (E1 m) c).arrAt_in 0 rfl _).trans (A_eq0 (E1 m) c 0))).trans (E1_arg0 m c)
theorem E2_v6 : E2 m c main_v6 = hidArr (m ((c.tc : Thread nD τ).loc main_arg0)) (m ((c.tc : Thread nD τ).loc main_arg1)) (m ((c.tc : Thread nD τ).loc main_arg2)) (m ((c.tc : Thread nD τ).loc main_arg3)) :=
  (B2_arr m c 3).trans (final0 m c)
theorem E2_v5_at (j : Fin 2) (d e : Fin 512) :
    E2 m c main_v5 (ix3 j d e) = (if j.val = 0 then m ((c.tc : Thread nD τ).loc main_arg4) else m ((c.tc : Thread nD τ).loc main_arg5)) (ix2 d e) := by
  rw [show E2 m c main_v5 = E1 m c main_v5 from B2_of_ne m c main_v5 (by decide)]
  exact E1_v5_at m c j d e

/-! ## The grid's points and the windows' blocks -/

theorem idx1 : ∀ t : Fin cfg1.N,
    win1_0.index t (0 : Fin 3) = t.val % 2 ∧ win1_0.index t (1 : Fin 3) = t.val / 2 ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 2) = t.val / 2 ∧ win1_3.index t (1 : Fin 2) = 0
    ∧ (grid1.coords t 0).val = t.val / 2 ∧ (grid1.coords t 1).val = t.val % 2 :=
  (by decide +kernel : ∀ t : Fin grid1.N, _)

theorem lt8' (t : Fin cfg1.N) : t.val < 8 := lt_of_lt_of_eq t.isLt (show cfg1.N = 8 from N_1)

/-- Point t's graph, and the node its block's row p holds. -/
def gr1 (t : Fin cfg1.N) : Fin 2 := ⟨t.val % 2, by omega⟩
def nd1 (t : Fin cfg1.N) (p : Fin 1024) : Fin 4096 := ⟨1024 * (t.val / 2) + p.val, by have := p.isLt; have := lt8' t; omega⟩

theorem emb1_0 (t : Fin cfg1.N) (u : Fin 1) (p : Fin 1024) (k : Fin 4096) :
    ((cfg1.win 0).blk t).view.emb (ix3 u p k) = ix3 (gr1 t) (nd1 t p) k := by
  obtain ⟨e0, e1, e2, -⟩ := idx1 t
  have hu := u.isLt
  funext a; apply Fin.ext
  match a with
  | ⟨0, _⟩ => show win1_0.index t (0 : Fin 3) * 1 + 1 * u.val = t.val % 2; omega
  | ⟨1, _⟩ => show win1_0.index t (1 : Fin 3) * 1024 + 1 * p.val = 1024 * (t.val / 2) + p.val; omega
  | ⟨2, _⟩ => show win1_0.index t (2 : Fin 3) * 4096 + 1 * k.val = k.val; omega
theorem emb1_1 (t : Fin cfg1.N) (y : S2x4096x512.Idx) : ((cfg1.win 1).blk t).view.emb y = y := by
  obtain ⟨-, -, -, e0, e1, e2, -⟩ := idx1 t
  funext a; apply Fin.ext
  match a with
  | ⟨0, _⟩ => show win1_1.index t (0 : Fin 3) * 2 + 1 * (y 0).val = (y 0).val; omega
  | ⟨1, _⟩ => show win1_1.index t (1 : Fin 3) * 4096 + 1 * (y 1).val = (y 1).val; omega
  | ⟨2, _⟩ => show win1_1.index t (2 : Fin 3) * 512 + 1 * (y 2).val = (y 2).val; omega
theorem emb1_2 (t : Fin cfg1.N) (y : S2x512x512.Idx) : ((cfg1.win 2).blk t).view.emb y = y := by
  obtain ⟨-, -, -, -, -, -, e0, e1, e2, -⟩ := idx1 t
  funext a; apply Fin.ext
  match a with
  | ⟨0, _⟩ => show win1_2.index t (0 : Fin 3) * 2 + 1 * (y 0).val = (y 0).val; omega
  | ⟨1, _⟩ => show win1_2.index t (1 : Fin 3) * 512 + 1 * (y 1).val = (y 1).val; omega
  | ⟨2, _⟩ => show win1_2.index t (2 : Fin 3) * 512 + 1 * (y 2).val = (y 2).val; omega
theorem emb1_3 (t : Fin cfg1.N) (p : Fin 1024) (q : Fin 512) :
    ((cfg1.win 3).blk t).view.emb (ix2 p q) = ix2 (nd1 t p) q := by
  obtain ⟨-, -, -, -, -, -, -, -, -, e0, e1, -⟩ := idx1 t
  funext a; apply Fin.ext
  match a with
  | ⟨0, _⟩ => show win1_3.index t (0 : Fin 2) * 1024 + 1 * p.val = 1024 * (t.val / 2) + p.val; omega
  | ⟨1, _⟩ => show win1_3.index t (1 : Fin 2) * 512 + 1 * q.val = q.val; omega

/-- The body's loads at the graph's offset read graph j's slice; the one at the panel's row offset too reads the panel's rows. -/
theorem off1_1 (t : Fin cfg1.N) (inb : ∀ a, k1_off1 (grid1.coords t) a + S1x4096x512.size a ≤ S2x4096x512.size a) (u : Fin 1) (k : Fin 4096) (d : Fin 512) :
    (Rect.unit (s := S2x4096x512) (k1_off1 (grid1.coords t)) S1x4096x512.size inb).emb (ix3 u k d) = ix3 (gr1 t) k d := by
  obtain ⟨-, -, -, -, -, -, -, -, -, -, -, ec0, ec1⟩ := idx1 t
  have hu := u.isLt
  have ho := k1_off1_eq (grid1.coords t)
  funext a; apply Fin.ext
  rw [Rect.emb_apply]
  match a with
  | ⟨0, _⟩ => show k1_off1 (grid1.coords t) 0 + 1 * u.val = t.val % 2; rw [ho]; show (grid1.coords t 1).val + 1 * u.val = _; omega
  | ⟨1, _⟩ => show k1_off1 (grid1.coords t) 1 + 1 * k.val = k.val; rw [ho]; show 0 + 1 * k.val = k.val; omega
  | ⟨2, _⟩ => show k1_off1 (grid1.coords t) 2 + 1 * d.val = d.val; rw [ho]; show 0 + 1 * d.val = d.val; omega
theorem off1_2 (t : Fin cfg1.N) (inb : ∀ a, k1_off2 (grid1.coords t) a + S1x1024x512.size a ≤ S2x4096x512.size a) (u : Fin 1) (p : Fin 1024) (d : Fin 512) :
    (Rect.unit (s := S2x4096x512) (k1_off2 (grid1.coords t)) S1x1024x512.size inb).emb (ix3 u p d) = ix3 (gr1 t) (nd1 t p) d := by
  obtain ⟨-, -, -, -, -, -, -, -, -, -, -, ec0, ec1⟩ := idx1 t
  have hu := u.isLt
  have ho := k1_off2_eq (grid1.coords t)
  funext a; apply Fin.ext
  rw [Rect.emb_apply]
  match a with
  | ⟨0, _⟩ => show k1_off2 (grid1.coords t) 0 + 1 * u.val = t.val % 2; rw [ho]; show (grid1.coords t 1).val + 1 * u.val = _; omega
  | ⟨1, _⟩ => show k1_off2 (grid1.coords t) 1 + 1 * p.val = 1024 * (t.val / 2) + p.val; rw [ho]; show 1024 * (grid1.coords t 0).val + 1 * p.val = _; omega
  | ⟨2, _⟩ => show k1_off2 (grid1.coords t) 2 + 1 * d.val = d.val; rw [ho]; show 0 + 1 * d.val = d.val; omega
theorem off1_3 (t : Fin cfg1.N) (inb : ∀ a, k1_off3 (grid1.coords t) a + S1x512x512.size a ≤ S2x512x512.size a) (u : Fin 1) (d e : Fin 512) :
    (Rect.unit (s := S2x512x512) (k1_off3 (grid1.coords t)) S1x512x512.size inb).emb (ix3 u d e) = ix3 (gr1 t) d e := by
  obtain ⟨-, -, -, -, -, -, -, -, -, -, -, ec0, ec1⟩ := idx1 t
  have hu := u.isLt
  have ho := k1_off3_eq (grid1.coords t)
  funext a; apply Fin.ext
  rw [Rect.emb_apply]
  match a with
  | ⟨0, _⟩ => show k1_off3 (grid1.coords t) 0 + 1 * u.val = t.val % 2; rw [ho]; show (grid1.coords t 1).val + 1 * u.val = _; omega
  | ⟨1, _⟩ => show k1_off3 (grid1.coords t) 1 + 1 * d.val = d.val; rw [ho]; show 0 + 1 * d.val = d.val; omega
  | ⟨2, _⟩ => show k1_off3 (grid1.coords t) 2 + 1 * e.val = e.val; rw [ho]; show 0 + 1 * e.val = e.val; omega

/-- Each input window's block at point t, read at one element. -/
theorem read1_0 (t : Fin cfg1.N) (p : Fin 1024) (k : Fin 4096) :
    iblk1 (E2 m) c 0 t (ix3 (0 : Fin 1) p k) = m ((c.tc : Thread nD τ).loc main_arg0) (ix3 (gr1 t) (nd1 t p) k) := by
  show E2 m c main_arg0 (((cfg1.win 0).blk t).view.emb (ix3 (0 : Fin 1) p k)) = _
  rw [emb1_0, E2_arg0]
theorem read1_1 (t : Fin cfg1.N) (y : S2x4096x512.Idx) :
    iblk1 (E2 m) c 1 t y = hidArr (m ((c.tc : Thread nD τ).loc main_arg0)) (m ((c.tc : Thread nD τ).loc main_arg1)) (m ((c.tc : Thread nD τ).loc main_arg2)) (m ((c.tc : Thread nD τ).loc main_arg3)) y := by
  show E2 m c main_v6 (((cfg1.win 1).blk t).view.emb y) = _
  rw [emb1_1, E2_v6]
theorem read1_2 (t : Fin cfg1.N) (j : Fin 2) (d e : Fin 512) :
    iblk1 (E2 m) c 2 t (ix3 j d e) = (if j.val = 0 then m ((c.tc : Thread nD τ).loc main_arg4) else m ((c.tc : Thread nD τ).loc main_arg5)) (ix2 d e) := by
  show E2 m c main_v5 (((cfg1.win 2).blk t).view.emb (ix3 j d e)) = _
  rw [emb1_2, E2_v5_at]

/-! ## What the output block holds after each point -/

theorem hz2 : (![0, 0] : Fin 2 → Nat) = fun _ => 0 := funext fun a => by fin_cases a <;> rfl

/-- Graph j's halved top features at the nodes of point t's panel: what point t contributes to the block. -/
def contrib (j : Fin 2) (t : Fin cfg1.N) : S1024x512.Idx → EReal := fun y =>
  top (m ((c.tc : Thread nD τ).loc main_arg0)) (m ((c.tc : Thread nD τ).loc main_arg1)) (if j.val = 0 then m ((c.tc : Thread nD τ).loc main_arg2) else m ((c.tc : Thread nD τ).loc main_arg3)) (if j.val = 0 then m ((c.tc : Thread nD τ).loc main_arg4) else m ((c.tc : Thread nD τ).loc main_arg5)) j (nd1 t (y 0)) (y 1) * wHalf

/-- The body's contribution at point t, from the point's blocks. -/
theorem contrib_eq (t : Fin cfg1.N) (inb1 inb2 inb3) (y : S1024x512.Idx) :
    k1_pay1 (iblk1 (E2 m) c 0 t)
      (View.ld (iblk1 (E2 m) c 1 t) (Rect.unit (s := S2x4096x512) (k1_off1 (grid1.coords t)) S1x4096x512.size inb1))
      (View.ld (iblk1 (E2 m) c 1 t) (Rect.unit (s := S2x4096x512) (k1_off2 (grid1.coords t)) S1x1024x512.size inb2))
      (View.ld (iblk1 (E2 m) c 2 t) (Rect.unit (s := S2x512x512) (k1_off3 (grid1.coords t)) S1x512x512.size inb3)) y
      = contrib m c (gr1 t) t y := by
  obtain ⟨p, q, rfl⟩ : ∃ (p : Fin 1024) (q : Fin 512), y = ix2 p q := ⟨y 0, y 1, eq_ix2 y⟩
  refine (block1 (m ((c.tc : Thread nD τ).loc main_arg0))
    (hid (m ((c.tc : Thread nD τ).loc main_arg0)) (m ((c.tc : Thread nD τ).loc main_arg1)) (if (gr1 t).val = 0 then m ((c.tc : Thread nD τ).loc main_arg2) else m ((c.tc : Thread nD τ).loc main_arg3)) (gr1 t))
    (if (gr1 t).val = 0 then m ((c.tc : Thread nD τ).loc main_arg4) else m ((c.tc : Thread nD τ).loc main_arg5)) (gr1 t) (nd1 t) _ _ _ _
    (read1_0 m c t) (fun k d => ?_) (fun p d => ?_) (fun d e => ?_) p q).trans rfl
  · show iblk1 (E2 m) c 1 t ((Rect.unit (s := S2x4096x512) (k1_off1 (grid1.coords t)) S1x4096x512.size inb1).emb (ix3 (0 : Fin 1) k d)) = _
    rw [off1_1, read1_1]; rfl
  · show iblk1 (E2 m) c 1 t ((Rect.unit (s := S2x4096x512) (k1_off2 (grid1.coords t)) S1x1024x512.size inb2).emb (ix3 (0 : Fin 1) p d)) = _
    rw [off1_2, read1_1]; rfl
  · show iblk1 (E2 m) c 2 t ((Rect.unit (s := S2x512x512) (k1_off3 (grid1.coords t)) S1x512x512.size inb3).emb (ix3 (0 : Fin 1) d e)) = _
    rw [off1_3, read1_2]

/-- After an even point the block holds that point's contribution. -/
theorem outs_even (t : Fin cfg1.N) (h0 : t.val % 2 = 0) :
    outsAt1 (E2 m) c t.val t.isLt = contrib m c (gr1 t) t := by
  rw [outsAt1_A (E2 m) c t h0]
  unfold out1_A
  rw [View.read_writes_eq_canon _ _ _ (cover1_A c _ _ _ _ _ _ _ _ _ _ _ _ _ _)]
  unfold kernelRun1_A
  dsimp only
  rw [View.canon_unit_zero hz2]
  simp only [View.readAt_eq_ld, Memref.IsWhole.read_unread, View.ld_unit_zero (S := S1x1024x4096) hz3]
  exact funext fun y => contrib_eq m c t _ _ _ y

/-- After an odd point it holds what the point before left plus the odd point's contribution. -/
theorem outs_odd (t : Fin cfg1.N) (h0 : ¬t.val % 2 = 0) :
    outsAt1 (E2 m) c t.val t.isLt
      = fun y => outsAt1 (E2 m) c (t.val - 1) (Nat.lt_of_le_of_lt (Nat.sub_le _ _) t.isLt) y + contrib m c (gr1 t) t y := by
  rw [outsAt1_B (E2 m) c t h0]
  unfold out1_B
  rw [View.read_writes_eq_canon _ _ _ (cover1_B c _ _ _ _ _ _ _ _ _ _ _ _ _ _ _)]
  unfold kernelRun1_B
  dsimp only
  rw [View.canon_unit_zero hz2]
  simp only [View.readAt_eq_ld, Memref.IsWhole.read_unread, View.ld_unit_zero (S := S1x1024x4096) hz3, View.ld_unit_zero (S := S1024x512) hz2]
  refine funext fun y => ?_
  rw [pay2_apply, contrib_eq m c t _ _ _ y]

/-! ## The result array -/

/-- WHAT AN ODD POINT WRITES BACK is its block of the mean of the two graphs' top features. -/
theorem flushed1_eq (t : Fin cfg1.N) (hf : (cfg1.win 3).flush t = true) :
    (dat1 (E2 m) c).flushed 3 t = ((cfg1.win 3).blk t).view.read (Elt Ideal)
      (outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  have h1 : t.val % 2 = 1 := (flush1_3 t).mp hf
  have hN := lt8' t
  show (cfg1.win 3).cut (grid1.coords t) ((dat1 (E2 m) c).after 3 t) = _
  rw [after1_3, outs_odd m c t (by omega)]
  have hprev := outs_even m c ⟨t.val - 1, Nat.lt_of_le_of_lt (Nat.sub_le _ _) t.isLt⟩ (show (t.val - 1) % 2 = 0 by omega)
  rw [show outsAt1 (E2 m) c (t.val - 1) (Nat.lt_of_le_of_lt (Nat.sub_le _ _) t.isLt) = _ from hprev]
  refine funext fun (y : S1024x512.Idx) => ?_
  obtain ⟨p, q, rfl⟩ : ∃ (p : Fin 1024) (q : Fin 512), y = ix2 p q := ⟨y 0, y 1, eq_ix2 y⟩
  show _ = outK _ _ _ _ _ _ (((cfg1.win 3).blk t).view.emb (ix2 p q))
  rw [emb1_3]
  have g0 : gr1 ⟨t.val - 1, Nat.lt_of_le_of_lt (Nat.sub_le _ _) t.isLt⟩ = (0 : Fin 2) := Fin.ext (show (t.val - 1) % 2 = 0 by omega)
  have g1 : gr1 t = (1 : Fin 2) := Fin.ext h1
  have n0 : nd1 ⟨t.val - 1, Nat.lt_of_le_of_lt (Nat.sub_le _ _) t.isLt⟩ p = nd1 t p :=
    Fin.ext (show 1024 * ((t.val - 1) / 2) + p.val = 1024 * (t.val / 2) + p.val by omega)
  show contrib m c (gr1 ⟨t.val - 1, _⟩) ⟨t.val - 1, _⟩ (ix2 p q) + contrib m c (gr1 t) t (ix2 p q) = _
  rw [g0, g1]
  unfold contrib
  show top _ _ _ _ 0 (nd1 ⟨t.val - 1, _⟩ p) q * wHalf + top _ _ _ _ 1 (nd1 t p) q * wHalf = _
  rw [n0]
  rfl

theorem mem_blk1 (t : Fin cfg1.N) (i : S4096x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v7).slice (win1_3.rect t)).set ↔ _
  rw [View.set_slice_whole, Rect.mem_set_unit]
  exact Iff.rfl

/-- Every index of the result is in the block some odd point writes back. -/
theorem cover1 (i : S4096x512.Idx) : ∃ t : Fin cfg1.N, (cfg1.win 3).flush t = true ∧ i ∈ ((cfg1.win 3).blk t).view.set := by
  have h0 : (i 0).val < 4096 := (i 0).isLt
  have h1 : (i 1).val < 512 := (i 1).isLt
  let t : Fin cfg1.N := ⟨2 * ((i 0).val / 1024) + 1, by rw [show cfg1.N = 8 from N_1]; omega⟩
  obtain ⟨-, -, -, -, -, -, -, -, -, e0, e1, -⟩ := idx1 t
  have ht : t.val = 2 * ((i 0).val / 1024) + 1 := rfl
  refine ⟨t, (flush1_3 t).mpr (by omega), ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- THE RESULT the kernel's program leaves: the mean of the two graphs' top features, spelt as the sum of the halves. -/
theorem final1 : result m c = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dat1 (E2 m) c).arrAt_eq_of_cover 3 _ (fun t hf => flushed1_eq m c t hf) cover1

end Cert.KernelIdeal.Val

end
-- ==== Proof.RefVal.lean ====
/-
  The reference program read at one element of its result, over the extended reals: the slices and reshapes pick a
  graph's adjacency rows and feature rows, each dot_general is the plain sum over its contracted coordinate, the
  scalar broadcasts are the constants 0.9, 0.1, 0 and 2 — so the result at (n, e) is the quotient by two of
  0 + top_0(n, e) + top_1(n, e), which is the sum of the halves.
-/
import proofs.«153490_g76459007803594_cont_9to1_m_617_26_alg».proof.Proof.Gen.ReferenceIdeal.Read
import proofs.«153490_g76459007803594_cont_9to1_m_617_26_alg».proof.Proof.Spec

noncomputable section

open scoped BigOperators

namespace Cert.ReferenceIdeal.RefVal

open Cert.ReferenceIdeal Cert.ReferenceIdeal.Read Cert.Spec Idealize.ShloMosaic Idealize.ShloMosaic.ValueIdx

/-! ## Graph 0 -/

/-- Graph 0's feature rows and adjacency rows, as the slices and reshapes read them. -/
theorem feat0 (x1 : (⟨S2x4096x512, .f32⟩ : BufTy).Contents (Elt Ideal)) (n : Fin 4096) (k : Fin 512) : val_main_v1 (F := Ideal) x1 (ix2 n k) = x1 (ix3 (0 : Fin 2) n k) := by
  rw [val_main_v1_apply, val_main_v0_apply]
  exact congrArg _ (funext fun a => Fin.ext (by
    match a with
    | ⟨0, _⟩ => rfl
    | ⟨1, _⟩ => show (n.val * 512 + k.val) / 512 % 4096 = n.val; omega
    | ⟨2, _⟩ => show (n.val * 512 + k.val) % 512 = k.val; omega))
theorem adjA0 (x0 : (⟨S2x4096x4096, .f32⟩ : BufTy).Contents (Elt Ideal)) (n : Fin 4096) (k : Fin 4096) : val_main_v5 (F := Ideal) x0 (ix2 n k) = x0 (ix3 (0 : Fin 2) n k) := by
  rw [val_main_v5_apply, val_main_v4_apply]
  exact congrArg _ (funext fun a => Fin.ext (by
    match a with
    | ⟨0, _⟩ => rfl
    | ⟨1, _⟩ => show (n.val * 4096 + k.val) / 4096 % 4096 = n.val; omega
    | ⟨2, _⟩ => show (n.val * 4096 + k.val) % 4096 = k.val; omega))
theorem adjB0 (x0 : (⟨S2x4096x4096, .f32⟩ : BufTy).Contents (Elt Ideal)) (n : Fin 4096) (k : Fin 4096) : val_main_v25 (F := Ideal) x0 (ix2 n k) = x0 (ix3 (0 : Fin 2) n k) := by
  rw [val_main_v25_apply, val_main_v24_apply]
  exact congrArg _ (funext fun a => Fin.ext (by
    match a with
    | ⟨0, _⟩ => rfl
    | ⟨1, _⟩ => show (n.val * 4096 + k.val) / 4096 % 4096 = n.val; omega
    | ⟨2, _⟩ => show (n.val * 4096 + k.val) % 4096 = k.val; omega))

/-- The first layer's mix, transform and clamp at (n, ·). -/
theorem mix0_0 (x0 : (⟨S2x4096x4096, .f32⟩ : BufTy).Contents (Elt Ideal)) (x1 : (⟨S2x4096x512, .f32⟩ : BufTy).Contents (Elt Ideal)) (n : Fin 4096) (d : Fin 512) :
    val_main_v11 (F := Ideal) x0 x1 (ix2 n d) = mix x0 0 (fun k d => x1 (ix3 (0 : Fin 2) k d)) n d := by
  rw [val_main_v11_apply, val_main_v8_apply, val_main_v10_apply, val_main_v7_apply, val_main_v9_apply,
    val_main_cst_apply, val_main_cst_0_apply, val_main_v6_apply, feat0]
  unfold mix
  refine congrArg (fun s => w09 * s + w01 * x1 (ix3 (0 : Fin 2) n d)) (Finset.sum_congr rfl fun k _ => ?_)
  rw [show lidx_main_v6 (ix2 n d) k = ix2 n k from funext fun a => Fin.ext (by match a with | ⟨0, _⟩ => rfl | ⟨1, _⟩ => rfl),
    show ridx_main_v6 (ix2 n d) k = ix2 k d from funext fun a => Fin.ext (by match a with | ⟨0, _⟩ => rfl | ⟨1, _⟩ => rfl), adjA0, feat0]
theorem hid_0 (x0 : (⟨S2x4096x4096, .f32⟩ : BufTy).Contents (Elt Ideal)) (x1 : (⟨S2x4096x512, .f32⟩ : BufTy).Contents (Elt Ideal)) (x2 : (⟨S512x512, .f32⟩ : BufTy).Contents (Elt Ideal)) (n : Fin 4096) (e : Fin 512) :
    val_main_v22 (F := Ideal) x0 x1 x2 (ix2 n e) = hid x0 x1 x2 0 n e := by
  rw [val_main_v22_apply, val_main_call0_v0_apply, val_main_call0_cst_apply, val_main_v12_apply]
  unfold hid lin
  refine congrArg (fun s => max s wZero) (Finset.sum_congr rfl fun d _ => ?_)
  rw [show lidx_main_v12 (ix2 n e) d = ix2 n d from funext fun a => Fin.ext (by match a with | ⟨0, _⟩ => rfl | ⟨1, _⟩ => rfl),
    show ridx_main_v12 (ix2 n e) d = ix2 d e from funext fun a => Fin.ext (by match a with | ⟨0, _⟩ => rfl | ⟨1, _⟩ => rfl), mix0_0]

/-- The second layer at (n, ·). -/
theorem mix1_0 (x0 : (⟨S2x4096x4096, .f32⟩ : BufTy).Contents (Elt Ideal)) (x1 : (⟨S2x4096x512, .f32⟩ : BufTy).Contents (Elt Ideal)) (x2 : (⟨S512x512, .f32⟩ : BufTy).Contents (Elt Ideal)) (n : Fin 4096) (d : Fin 512) :
    val_main_v31 (F := Ideal) x0 x1 x2 (ix2 n d) = mix x0 0 (hid x0 x1 x2 0) n d := by
  rw [val_main_v31_apply, val_main_v28_apply, val_main_v30_apply, val_main_v27_apply, val_main_v29_apply,
    val_main_cst_3_apply, val_main_cst_4_apply, val_main_v26_apply, hid_0]
  unfold mix
  refine congrArg (fun s => w09 * s + w01 * hid x0 x1 x2 0 n d) (Finset.sum_congr rfl fun k _ => ?_)
  rw [show lidx_main_v26 (ix2 n d) k = ix2 n k from funext fun a => Fin.ext (by match a with | ⟨0, _⟩ => rfl | ⟨1, _⟩ => rfl),
    show ridx_main_v26 (ix2 n d) k = ix2 k d from funext fun a => Fin.ext (by match a with | ⟨0, _⟩ => rfl | ⟨1, _⟩ => rfl), adjB0, hid_0]
theorem top_0 (x0 : (⟨S2x4096x4096, .f32⟩ : BufTy).Contents (Elt Ideal)) (x1 : (⟨S2x4096x512, .f32⟩ : BufTy).Contents (Elt Ideal)) (x2 : (⟨S512x512, .f32⟩ : BufTy).Contents (Elt Ideal)) (x4 : (⟨S512x512, .f32⟩ : BufTy).Contents (Elt Ideal)) (n : Fin 4096) (e : Fin 512) :
    val_main_v32 (F := Ideal) x0 x1 x2 x4 (ix2 n e) = top x0 x1 x2 x4 0 n e := by
  rw [val_main_v32_apply]
  unfold top lin
  refine Finset.sum_congr rfl fun d _ => ?_
  rw [show lidx_main_v32 (ix2 n e) d = ix2 n d from funext fun a => Fin.ext (by match a with | ⟨0, _⟩ => rfl | ⟨1, _⟩ => rfl),
    show ridx_main_v32 (ix2 n e) d = ix2 d e from funext fun a => Fin.ext (by match a with | ⟨0, _⟩ => rfl | ⟨1, _⟩ => rfl), mix1_0]

/-! ## Graph 1 -/

/-- Graph 1's feature rows and adjacency rows, as the slices and reshapes read them. -/
theorem feat1 (x1 : (⟨S2x4096x512, .f32⟩ : BufTy).Contents (Elt Ideal)) (n : Fin 4096) (k : Fin 512) : val_main_v3 (F := Ideal) x1 (ix2 n k) = x1 (ix3 (1 : Fin 2) n k) := by
  rw [val_main_v3_apply, val_main_v2_apply]
  exact congrArg _ (funext fun a => Fin.ext (by
    match a with
    | ⟨0, _⟩ => rfl
    | ⟨1, _⟩ => show (n.val * 512 + k.val) / 512 % 4096 = n.val; omega
    | ⟨2, _⟩ => show (n.val * 512 + k.val) % 512 = k.val; omega))
theorem adjA1 (x0 : (⟨S2x4096x4096, .f32⟩ : BufTy).Contents (Elt Ideal)) (n : Fin 4096) (k : Fin 4096) : val_main_v14 (F := Ideal) x0 (ix2 n k) = x0 (ix3 (1 : Fin 2) n k) := by
  rw [val_main_v14_apply, val_main_v13_apply]
  exact congrArg _ (funext fun a => Fin.ext (by
    match a with
    | ⟨0, _⟩ => rfl
    | ⟨1, _⟩ => show (n.val * 4096 + k.val) / 4096 % 4096 = n.val; omega
    | ⟨2, _⟩ => show (n.val * 4096 + k.val) % 4096 = k.val; omega))
theorem adjB1 (x0 : (⟨S2x4096x4096, .f32⟩ : BufTy).Contents (Elt Ideal)) (n : Fin 4096) (k : Fin 4096) : val_main_v34 (F := Ideal) x0 (ix2 n k) = x0 (ix3 (1 : Fin 2) n k) := by
  rw [val_main_v34_apply, val_main_v33_apply]
  exact congrArg _ (funext fun a => Fin.ext (by
    match a with
    | ⟨0, _⟩ => rfl
    | ⟨1, _⟩ => show (n.val * 4096 + k.val) / 4096 % 4096 = n.val; omega
    | ⟨2, _⟩ => show (n.val * 4096 + k.val) % 4096 = k.val; omega))

/-- The first layer's mix, transform and clamp at (n, ·). -/
theorem mix0_1 (x0 : (⟨S2x4096x4096, .f32⟩ : BufTy).Contents (Elt Ideal)) (x1 : (⟨S2x4096x512, .f32⟩ : BufTy).Contents (Elt Ideal)) (n : Fin 4096) (d : Fin 512) :
    val_main_v20 (F := Ideal) x0 x1 (ix2 n d) = mix x0 1 (fun k d => x1 (ix3 (1 : Fin 2) k d)) n d := by
  rw [val_main_v20_apply, val_main_v17_apply, val_main_v19_apply, val_main_v16_apply, val_main_v18_apply,
    val_main_cst_1_apply, val_main_cst_2_apply, val_main_v15_apply, feat1]
  unfold mix
  refine congrArg (fun s => w09 * s + w01 * x1 (ix3 (1 : Fin 2) n d)) (Finset.sum_congr rfl fun k _ => ?_)
  rw [show lidx_main_v15 (ix2 n d) k = ix2 n k from funext fun a => Fin.ext (by match a with | ⟨0, _⟩ => rfl | ⟨1, _⟩ => rfl),
    show ridx_main_v15 (ix2 n d) k = ix2 k d from funext fun a => Fin.ext (by match a with | ⟨0, _⟩ => rfl | ⟨1, _⟩ => rfl), adjA1, feat1]
theorem hid_1 (x0 : (⟨S2x4096x4096, .f32⟩ : BufTy).Contents (Elt Ideal)) (x1 : (⟨S2x4096x512, .f32⟩ : BufTy).Contents (Elt Ideal)) (x3 : (⟨S512x512, .f32⟩ : BufTy).Contents (Elt Ideal)) (n : Fin 4096) (e : Fin 512) :
    val_main_v23 (F := Ideal) x0 x1 x3 (ix2 n e) = hid x0 x1 x3 1 n e := by
  rw [val_main_v23_apply, val_main_call1_v0_apply, val_main_call1_cst_apply, val_main_v21_apply]
  unfold hid lin
  refine congrArg (fun s => max s wZero) (Finset.sum_congr rfl fun d _ => ?_)
  rw [show lidx_main_v21 (ix2 n e) d = ix2 n d from funext fun a => Fin.ext (by match a with | ⟨0, _⟩ => rfl | ⟨1, _⟩ => rfl),
    show ridx_main_v21 (ix2 n e) d = ix2 d e from funext fun a => Fin.ext (by match a with | ⟨0, _⟩ => rfl | ⟨1, _⟩ => rfl), mix0_1]

/-- The second layer at (n, ·). -/
theorem mix1_1 (x0 : (⟨S2x4096x4096, .f32⟩ : BufTy).Contents (Elt Ideal)) (x1 : (⟨S2x4096x512, .f32⟩ : BufTy).Contents (Elt Ideal)) (x3 : (⟨S512x512, .f32⟩ : BufTy).Contents (Elt Ideal)) (n : Fin 4096) (d : Fin 512) :
    val_main_v40 (F := Ideal) x0 x1 x3 (ix2 n d) = mix x0 1 (hid x0 x1 x3 1) n d := by
  rw [val_main_v40_apply, val_main_v37_apply, val_main_v39_apply, val_main_v36_apply, val_main_v38_apply,
    val_main_cst_5_apply, val_main_cst_6_apply, val_main_v35_apply, hid_1]
  unfold mix
  refine congrArg (fun s => w09 * s + w01 * hid x0 x1 x3 1 n d) (Finset.sum_congr rfl fun k _ => ?_)
  rw [show lidx_main_v35 (ix2 n d) k = ix2 n k from funext fun a => Fin.ext (by match a with | ⟨0, _⟩ => rfl | ⟨1, _⟩ => rfl),
    show ridx_main_v35 (ix2 n d) k = ix2 k d from funext fun a => Fin.ext (by match a with | ⟨0, _⟩ => rfl | ⟨1, _⟩ => rfl), adjB1, hid_1]
theorem top_1 (x0 : (⟨S2x4096x4096, .f32⟩ : BufTy).Contents (Elt Ideal)) (x1 : (⟨S2x4096x512, .f32⟩ : BufTy).Contents (Elt Ideal)) (x3 : (⟨S512x512, .f32⟩ : BufTy).Contents (Elt Ideal)) (x5 : (⟨S512x512, .f32⟩ : BufTy).Contents (Elt Ideal)) (n : Fin 4096) (e : Fin 512) :
    val_main_v41 (F := Ideal) x0 x1 x3 x5 (ix2 n e) = top x0 x1 x3 x5 1 n e := by
  rw [val_main_v41_apply]
  unfold top lin
  refine Finset.sum_congr rfl fun d _ => ?_
  rw [show lidx_main_v41 (ix2 n e) d = ix2 n d from funext fun a => Fin.ext (by match a with | ⟨0, _⟩ => rfl | ⟨1, _⟩ => rfl),
    show ridx_main_v41 (ix2 n e) d = ix2 d e from funext fun a => Fin.ext (by match a with | ⟨0, _⟩ => rfl | ⟨1, _⟩ => rfl), mix1_1]

/-! ## The result -/

/-- The reference's result array is the sum of the two graphs' halved top features, index by index. -/
theorem result_eq (x0 : (⟨S2x4096x4096, .f32⟩ : BufTy).Contents (Elt Ideal)) (x1 : (⟨S2x4096x512, .f32⟩ : BufTy).Contents (Elt Ideal)) (x2 : (⟨S512x512, .f32⟩ : BufTy).Contents (Elt Ideal)) (x3 : (⟨S512x512, .f32⟩ : BufTy).Contents (Elt Ideal)) (x4 : (⟨S512x512, .f32⟩ : BufTy).Contents (Elt Ideal)) (x5 : (⟨S512x512, .f32⟩ : BufTy).Contents (Elt Ideal)) :
    val_main_v46 (F := Ideal) x0 x1 x2 x3 x4 x5 = outK x0 x1 x2 x3 x4 x5 := by
  funext i
  obtain ⟨n, e, rfl⟩ : ∃ (n : Fin 4096) (e : Fin 512), i = ix2 n e := ⟨i 0, i 1, eq_ix2 i⟩
  rw [val_main_v46_apply, val_main_v44_apply, val_main_v43_apply, val_main_v42_apply, val_main_v45_apply, val_main_cst_7_apply,
    val_main_cst_8_apply, top_0, top_1]
  exact mean_two _ _

end Cert.ReferenceIdeal.RefVal

end
-- ==== Proof.lean ====
/-
  The certificate's claims, assembled.

  Both programs compute the mean over two graphs of a two-layer graph network on 4096 nodes with 512 features:
  a layer sends features h to (0.9 · A · h + 0.1 · h) · W, the first layer is clamped at zero. The kernel's program
  runs one pallas_call per layer over row panels of 1024 nodes; the second call adds the two graphs' halved results
  into each output block over two consecutive grid points. The reference adds the two graphs' results and divides by
  two. Over the extended reals every change of float format is the identity and every matrix product is the plain
  sum of products, so the two results agree element by element; the one law used is that halving distributes over a
  sum of extended reals.

  The frames: each program runs to its end, faults nowhere and leaves its arguments as launched. For the kernel's
  program this is the launch of its three segments (the host's two weight stacks, then the two calls) with each
  kernel body run once per control case; for the reference it is its run with the result forgotten.
-/
import proofs.«153490_g76459007803594_cont_9to1_m_617_26_alg».proof.Defs
import proofs.«153490_g76459007803594_cont_9to1_m_617_26_alg».proof.Proof.Gen.Kernel
import proofs.«153490_g76459007803594_cont_9to1_m_617_26_alg».proof.Proof.Gen.KernelIdeal
import proofs.«153490_g76459007803594_cont_9to1_m_617_26_alg».proof.Proof.Gen.ReferenceIdeal
import proofs.«153490_g76459007803594_cont_9to1_m_617_26_alg».proof.Proof.Gen.Pre_finite_inputs
import proofs.«153490_g76459007803594_cont_9to1_m_617_26_alg».proof.Proof.Gen.ReferenceIdeal.Run
import proofs.«153490_g76459007803594_cont_9to1_m_617_26_alg».proof.Proof.K.Frame
import proofs.«153490_g76459007803594_cont_9to1_m_617_26_alg».proof.Proof.KI.Val1
import proofs.«153490_g76459007803594_cont_9to1_m_617_26_alg».proof.Proof.RefVal

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- The kernel's program ends with the result at the sum of the two graphs' halved top features of its arguments, the
    reference with the quotient by two of their sum, of arguments that agree: one function. -/
theorem algebraic : Cert.algebraic_KernelIdeal_ReferenceIdeal := by
  intro m ρ m' ρ' _ hagree
  refine ⟨fun c => Cert.Spec.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Val.final1 m c), (h c).2⟩) (Cert.KernelIdeal.Fr.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, Cert.ReferenceIdeal.RefVal.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
